-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x500 : Shape := ⟨2, ![100000, 500]⟩
abbrev S2x1600000 : Shape := ⟨2, ![2, 1600000]⟩
abbrev S500x64 : Shape := ⟨2, ![500, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x500 : S_.BroadcastsInDim S100000x500 (![] : Fin 0 → Fin S100000x500.rank)
  reducesTo_S100000x500_S_d0_1 : S100000x500.ReducesTo [0, 1] S_
  h_S_ : 0 < S_.numel
  bcast_S_S500x64 : S_.BroadcastsInDim S500x64 (![] : Fin 0 → Fin S500x64.rank)
  reducesTo_S500x64_S_d0_1 : S500x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S64x40 1) : IVec S_ 1 :=
  let main_c_5 : IVec S_ 1 := constantI S_ 1 1#1
  let main_v17 : IVec S_ 1 := (fun x v => Host.reduce IntOp.andi x v reducesTo_S64x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x500 .f32) (main_arg1 : IVec S2x1600000 32) (main_arg2 : FVec F S500x64 .f32) (main_arg3 : FVec F S64 .f32) (main_arg4 : FVec F S64x40 .f32) (main_arg5 : FVec F S40 .f32) : IVec S_ 1 :=
  let main_v0 : FVec F S100000x500 .f32 := Host.absf main_arg0
  let main_cst : FVec F S_ .f32 := constant S_ .f32 0x7F800000#32
  let main_v1 : FVec F S100000x500 .f32 := broadcastInDim S100000x500 ![] bcast_S_S100000x500 main_cst
  let main_v2 : IVec S100000x500 1 := cmpf .olt main_v0 main_v1
  let main_c : IVec S_ 1 := constantI S_ 1 1#1
  let main_v3 : IVec S_ 1 := (fun x v => Host.reduce IntOp.andi x v reducesTo_S100000x500_S_d0_1 h_S_) main_v2 main_c
  let main_v4 : FVec F S500x64 .f32 := Host.absf main_arg2
  let main_cst_0 : FVec F S_ .f32 := constant S_ .f32 0x7F800000#32
  let main_v5 : FVec F S500x64 .f32 := broadcastInDim S500x64 ![] bcast_S_S500x64 main_cst_0
  let main_v6 : IVec S500x64 1 := cmpf .olt main_v4 main_v5
  let main_c_1 : IVec S_ 1 := constantI S_ 1 1#1
  let main_v7 : IVec S_ 1 := (fun x v => Host.reduce IntOp.andi x v reducesTo_S500x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x40 .f32 := Host.absf main_arg4
  let main_cst_4 : FVec F S_ .f32 := constant S_ .f32 0x7F800000#32
  let main_v15 : FVec F S64x40 .f32 := broadcastInDim S64x40 ![] bcast_S_S64x40 main_cst_4
  let main_v16 : IVec S64x40 1 := cmpf .olt main_v14 main_v15
  fn_part1 (F := F) main_arg5 main_v13 main_v16
-- ==== Kernel.lean ====
abbrev S100000x500 : Shape := ⟨2, ![100000, 500]⟩
abbrev S2x1600000 : Shape := ⟨2, ![2, 1600000]⟩
abbrev S500x64 : Shape := ⟨2, ![500, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S5000x500 : Shape := ⟨2, ![5000, 500]⟩
abbrev S5000x64 : Shape := ⟨2, ![5000, 64]⟩
abbrev S1700000x64 : Shape := ⟨2, ![1700000, 64]⟩
abbrev S1x64 : Shape := ⟨2, ![1, 64]⟩
abbrev S100000x40 : Shape := ⟨2, ![100000, 40]⟩
abbrev S5000x40 : Shape := ⟨2, ![5000, 40]⟩
abbrev S1700000x40 : Shape := ⟨2, ![1700000, 40]⟩
abbrev S1x40 : Shape := ⟨2, ![1, 40]⟩
abbrev S5000 : Shape := ⟨1, ![5000]⟩
abbrev S5000x1 : Shape := ⟨2, ![5000, 1]⟩

abbrev nBuf : Space → Nat
  | .hbm => 79
  | .vmem => 16
  | .smem => 0
  | _ => 0

abbrev bufTy : (tb : Table) → Fin (tcTables nBuf tb) → BufTy
  | .hbm, ⟨0, _⟩ => ⟨S100000x500, .f32⟩
  | .hbm, ⟨1, _⟩ => ⟨S2x1600000, .i32⟩
  | .hbm, ⟨2, _⟩ => ⟨S500x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S1700000, .i32⟩
  | .hbm, ⟨25, _⟩ => ⟨S1700000, .i1⟩
  | .hbm, ⟨26, _⟩ => ⟨S_, .i32⟩
  | .hbm, ⟨27, _⟩ => ⟨S1700000, .i32⟩
  | .hbm, ⟨28, _⟩ => ⟨S1700000, .i32⟩
  | .hbm, ⟨29, _⟩ => ⟨S1700000, .i32⟩
  | .hbm, ⟨30, _⟩ => ⟨S1700000x1, .i32⟩
  | .hbm, ⟨31, _⟩ => ⟨S1700000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S1700000, .f32⟩
  | .hbm, ⟨42, _⟩ => ⟨S100000x64, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000x64, .f32⟩
  | .hbm, ⟨52, _⟩ => ⟨S1700000x1, .f32⟩
  | .hbm, ⟨53, _⟩ => ⟨S1700000x64, .f32⟩
  | .hbm, ⟨54, _⟩ => ⟨S1700000x64, .f32⟩
  | .hbm, ⟨55, _⟩ => ⟨S_, .f32⟩
  | .hbm, ⟨56, _⟩ => ⟨S100000x64, .f32⟩
  | .hbm, ⟨57, _⟩ => ⟨S1700000x1, .i32⟩
  | .hbm, ⟨58, _⟩ => ⟨S100000x64, .f32⟩
  | .hbm, ⟨59, _⟩ => ⟨S1x64, .f32⟩
  | .hbm, ⟨60, _⟩ => ⟨S100000x40, .f32⟩
  | .hbm, ⟨61, _⟩ => ⟨S_, .i32⟩
  | .hbm, ⟨62, _⟩ => ⟨S1700000, .i32⟩
  | .hbm, ⟨63, _⟩ => ⟨S1700000, .i1⟩
  | .hbm, ⟨64, _⟩ => ⟨S_, .i32⟩
  | .hbm, ⟨65, _⟩ => ⟨S1700000, .i32⟩
  | .hbm, ⟨66, _⟩ => ⟨S1700000, .i32⟩
  | .hbm, ⟨67, _⟩ => ⟨S1700000, .i32⟩
  | .hbm, ⟨68, _⟩ => ⟨S1700000x1, .i32⟩
  | .hbm, ⟨69, _⟩ => ⟨S1700000x40, .f32⟩
  | .hbm, ⟨70, _⟩ => ⟨S1700000x1, .f32⟩
  | .hbm, ⟨71, _⟩ => ⟨S1700000x40, .f32⟩
  | .hbm, ⟨72, _⟩ => ⟨S1700000x40, .f32⟩
  | .hbm, ⟨73, _⟩ => ⟨S_, .f32⟩
  | .hbm, ⟨74, _⟩ => ⟨S100000x40, .f32⟩
  | .hbm, ⟨75, _⟩ => ⟨S1700000x1, .i32⟩
  | .hbm, ⟨76, _⟩ => ⟨S100000x40, .f32⟩
  | .hbm, ⟨77, _⟩ => ⟨S1x40, .f32⟩
  | .hbm, ⟨78, _⟩ => ⟨S100000x40, .f32⟩
  | .local _ .vmem, ⟨0, _⟩ => ⟨S5000x500, .f32⟩
  | .local _ .vmem, ⟨1, _⟩ => ⟨S5000x500, .f32⟩
  | .local _ .vmem, ⟨2, _⟩ => ⟨S500x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S64x40, .f32⟩
  | .local _ .vmem, ⟨9, _⟩ => ⟨S5000x40, .f32⟩
  | .local _ .vmem, ⟨10, _⟩ => ⟨S5000x40, .f32⟩
  | .local _ .vmem, ⟨11, _⟩ => ⟨S5000x40, .f32⟩
  | .local _ .vmem, ⟨12, _⟩ => ⟨S5000x40, .f32⟩
  | .local _ .vmem, ⟨13, _⟩ => ⟨S1x40, .f32⟩
  | .local _ .vmem, ⟨14, _⟩ => ⟨S5000x40, .f32⟩
  | .local _ .vmem, ⟨15, _⟩ => ⟨S5000x40, .f32⟩
  | _, _ => ⟨S100000x500, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_8 : Ref sig .tc := ⟨.hbm, 61, rfl⟩
abbrev main_v45 : Ref sig .tc := ⟨.hbm, 62, rfl⟩
abbrev main_v46 : Ref sig .tc := ⟨.hbm, 63, rfl⟩
abbrev main_c_9 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_10 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x500 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S500x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x500_S5000x500_0_0 : ∀ a, (![0, 0] : Fin 2 → Nat) a + S5000x500.size a ≤ S5000x500.size a
  h_S5000x500 : 0 < S5000x500.numel
  bitsLt_bf16_f32 : FTy.bits .bf16 < FTy.bits .f32
  inb_S500x64_S500x64_0_0 : ∀ a, (![0, 0] : Fin 2 → Nat) a + S500x64.size a ≤ S500x64.size a
  h_S500x64 : 0 < S500x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x40_S64x40_0_0 : ∀ a, (![0, 0] : Fin 2 → Nat) a + S64x40.size a ≤ S64x40.size a
  h_S64x40 : 0 < S64x40.numel
  inb_S5000x40_S5000x40_0_0 : ∀ a, (![0, 0] : Fin 2 → Nat) a + S5000x40.size a ≤ S5000x40.size a
  h_S5000x40 : 0 < S5000x40.numel
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  shapeCasts_S40_S1x40 : S40.ShapeCasts S1x40
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x500_S500x64_S5000x64_1_0_0_1_n_n_wf : DotDims.WF S5000x500 S500x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x40_S5000x40_1_0_0_1_n_n_wf : DotDims.WF S5000x64 S64x40 S5000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x500.size a ≤ S100000x500.size a
  hwx0_0 : ∀ i : grid0.Coords, EltTy.bits .f32 = 32 ∨ (Rect.block (s := S100000x500) S5000x500.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S500x64.size a ≤ S500x64.size a
  hwx0_1 : ∀ i : grid0.Coords, EltTy.bits .f32 = 32 ∨ (Rect.block (s := S500x64) S500x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x40.size a ≤ S64x40.size a
  hwx1_2 : ∀ i : grid1.Coords, EltTy.bits .f32 = 32 ∨ (Rect.block (s := S64x40) S64x40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x40.size a ≤ S100000x40.size a
  hwx1_3 : ∀ i : grid1.Coords, EltTy.bits .f32 = 32 ∨ (Rect.block (s := S100000x40) S5000x40.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x40.size a ≤ S100000x40.size a
  hwx2_0 : ∀ i : grid2.Coords, EltTy.bits .f32 = 32 ∨ (Rect.block (s := S100000x40) S5000x40.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x40.size a ≤ S1x40.size a
  hwx2_1 : ∀ i : grid2.Coords, EltTy.bits .f32 = 32 ∨ (Rect.block (s := S1x40) S1x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x40.size a ≤ S100000x40.size a
  hwx2_2 : ∀ i : grid2.Coords, EltTy.bits .f32 = 32 ∨ (Rect.block (s := S100000x40) S5000x40.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x500_S500x64_S5000x64_1_0_0_1_n_n : DotDims S5000x500 S500x64 S5000x64 where
  lhsContracting := [1]
  rhsContracting := [0]
  lhsNonContracting := [0]
  rhsNonContracting := [1]
  lhsBatch := []
  rhsBatch := []
  wf := dot_S5000x500_S500x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S5000x500.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S500x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S5000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v57) S5000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S1x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v59) S5000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x500 : Shape := ⟨2, ![100000, 500]⟩
abbrev S2x1600000 : Shape := ⟨2, ![2, 1600000]⟩
abbrev S500x64 : Shape := ⟨2, ![500, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S100000x64 : Shape := ⟨2, ![100000, 64]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x40 : Shape := ⟨2, ![100000, 40]⟩
abbrev S1700000x40 : Shape := ⟨2, ![1700000, 40]⟩
abbrev S1x40 : Shape := ⟨2, ![1, 40]⟩
abbrev S100000x1 : Shape := ⟨2, ![100000, 1]⟩

abbrev nBuf : Space → Nat
  | .hbm => 129
  | .vmem => 0
  | .smem => 0
  | _ => 0

abbrev hbmTy0_0 (i : Nat) : BufTy := match i % 128 with
  | 0 => ⟨S100000x500, .f32⟩
  | 1 => ⟨S2x1600000, .i32⟩
  | 2 => ⟨S500x64, .f32⟩
  | 3 => ⟨S64, .f32⟩
  | 4 => ⟨S64x40, .f32⟩
  | 5 => ⟨S40, .f32⟩
  | 6 => ⟨S100000, .i32⟩
  | 7 => ⟨S1x1600000, .i32⟩
  | 8 => ⟨S1600000, .i32⟩
  | 9 => ⟨S1700000, .i32⟩
  | 10 => ⟨S1x1600000, .i32⟩
  | 11 => ⟨S1600000, .i32⟩
  | 12 => ⟨S1700000, .i32⟩
  | 13 => ⟨S100000x64, .f32⟩
  | 14 => ⟨S_, .f32⟩
  | 15 => ⟨S1700000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .f32⟩
  | 23 => ⟨S100000, .f32⟩
  | 24 => ⟨S_, .i32⟩
  | 25 => ⟨S1700000, .i32⟩
  | 26 => ⟨S1700000, .i1⟩
  | 27 => ⟨S_, .i32⟩
  | 28 => ⟨S1700000, .i32⟩
  | 29 => ⟨S1700000, .i32⟩
  | 30 => ⟨S1700000, .i32⟩
  | 31 => ⟨S1700000x1, .i32⟩
  | 32 => ⟨S1700000, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S1700000, .f32⟩
  | 43 => ⟨S_, .i32⟩
  | 44 => ⟨S1700000, .i32⟩
  | 45 => ⟨S1700000, .i1⟩
  | 46 => ⟨S_, .i32⟩
  | 47 => ⟨S1700000, .i32⟩
  | 48 => ⟨S1700000, .i32⟩
  | 49 => ⟨S1700000, .i32⟩
  | 50 => ⟨S1700000x1, .i32⟩
  | 51 => ⟨S1700000x64, .f32⟩
  | 52 => ⟨S1700000x1, .f32⟩
  | 53 => ⟨S1700000x64, .f32⟩
  | 54 => ⟨S1700000x64, .f32⟩
  | 55 => ⟨S_, .f32⟩
  | 56 => ⟨S100000x64, .f32⟩
  | 57 => ⟨S1700000x1, .i32⟩
  | 58 => ⟨S100000x64, .f32⟩
  | 59 => ⟨S1x64, .f32⟩
  | 60 => ⟨S100000x64, .f32⟩
  | 61 => ⟨S100000x64, .f32⟩
  | 62 => ⟨S_, .f32⟩
  | 63 => ⟨S100000x64, .f32⟩
  | 64 => ⟨S100000x64, .f32⟩
  | 65 => ⟨S100000x40, .f32⟩
  | 66 => ⟨S_, .f32⟩
  | 67 => ⟨S1700000, .f32⟩
  | 68 => ⟨S_, .f32⟩
  | 69 => ⟨S100000, .f32⟩
  | 70 => ⟨S1700000x1, .i32⟩
  | 71 => ⟨S100000, .f32⟩
  | 72 => ⟨S_, .f32⟩
  | 73 => ⟨S100000, .f32⟩
  | 74 => ⟨S100000, .f32⟩
  | 75 => ⟨S100000, .f32⟩
  | 76 => ⟨S_, .i32⟩
  | 77 => ⟨S1700000, .i32⟩
  | 78 => ⟨S1700000, .i1⟩
  | 79 => ⟨S_, .i32⟩
  | 80 => ⟨S1700000, .i32⟩
  | 81 => ⟨S1700000, .i32⟩
  | 82 => ⟨S1700000, .i32⟩
  | 83 => ⟨S1700000x1, .i32⟩
  | 84 => ⟨S1700000, .f32⟩
  | 85 => ⟨S_, .i32⟩
  | 86 => ⟨S1700000, .i32⟩
  | 87 => ⟨S1700000, .i1⟩
  | 88 => ⟨S_, .i32⟩
  | 89 => ⟨S1700000, .i32⟩
  | 90 => ⟨S1700000, .i32⟩
  | 91 => ⟨S1700000, .i32⟩
  | 92 => ⟨S1700000x1, .i32⟩
  | 93 => ⟨S1700000, .f32⟩
  | 94 => ⟨S1700000, .f32⟩
  | 95 => ⟨S_, .i32⟩
  | 96 => ⟨S1700000, .i32⟩
  | 97 => ⟨S1700000, .i1⟩
  | 98 => ⟨S_, .i32⟩
  | 99 => ⟨S1700000, .i32⟩
  | 100 => ⟨S1700000, .i32⟩
  | 101 => ⟨S1700000, .i32⟩
  | 102 => ⟨S1700000x1, .i32⟩
  | 103 => ⟨S1700000x40, .f32⟩
  | 104 => ⟨S1700000x1, .f32⟩
  | 105 => ⟨S1700000x40, .f32⟩
  | 106 => ⟨S1700000x40, .f32⟩
  | 107 => ⟨S_, .f32⟩
  | 108 => ⟨S100000x40, .f32⟩
  | 109 => ⟨S1700000x1, .i32⟩
  | 110 => ⟨S100000x40, .f32⟩
  | 111 => ⟨S1x40, .f32⟩
  | 112 => ⟨S100000x40, .f32⟩
  | 113 => ⟨S100000x40, .f32⟩
  | 114 => ⟨S_, .f32⟩
  | 115 => ⟨S100000, .f32⟩
  | 116 => ⟨S_, .f32⟩
  | 117 => ⟨S100000, .f32⟩
  | 118 => ⟨S100000, .f32⟩
  | 119 => ⟨S100000x1, .f32⟩
  | 120 => ⟨S100000x40, .f32⟩
  | 121 => ⟨S100000x40, .f32⟩
  | 122 => ⟨S100000x40, .f32⟩
  | 123 => ⟨S_, .f32⟩
  | 124 => ⟨S100000, .f32⟩
  | 125 => ⟨S100000x1, .f32⟩
  | 126 => ⟨S100000x1, .f32⟩
  | 127 => ⟨S100000x40, .f32⟩
  | _ => ⟨S100000x500, .f32⟩

abbrev hbmTy0_1 (i : Nat) : BufTy := match i % 128 with
  | 0 => ⟨S100000x40, .f32⟩
  | _ => ⟨S100000x500, .f32⟩

abbrev hbmTy (i : Nat) : BufTy := match i / 128 with
  | 0 => hbmTy0_0 i
  | 1 => hbmTy0_1 i
  | _ => ⟨S100000x500, .f32⟩

abbrev bufTy : (tb : Table) → Fin (tcTables nBuf tb) → BufTy
  | .hbm, ⟨i, _⟩ => hbmTy i
  | _, _ => ⟨S100000x500, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_call0_cst : Ref sig .tc := ⟨.hbm, 62, rfl⟩
abbrev main_call0_v0 : Ref sig .tc := ⟨.hbm, 63, rfl⟩
abbrev main_v46 : Ref sig .tc := ⟨.hbm, 64, rfl⟩
abbrev main_v47 : Ref sig .tc := ⟨.hbm, 65, rfl⟩
abbrev main_cst_8 : Ref sig .tc := ⟨.hbm, 66, rfl⟩
abbrev main_v48 : Ref sig .tc := ⟨.hbm, 67, rfl⟩
abbrev main_cst_9 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_10 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_c_11 : Ref sig .tc := ⟨.hbm, 76, rfl⟩
abbrev main_v55 : Ref sig .tc := ⟨.hbm, 77, rfl⟩
abbrev main_v56 : Ref sig .tc := ⟨.hbm, 78, rfl⟩
abbrev main_c_12 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_c_13 : Ref sig .tc := ⟨.hbm, 85, rfl⟩
abbrev main_v62 : Ref sig .tc := ⟨.hbm, 86, rfl⟩
abbrev main_v63 : Ref sig .tc := ⟨.hbm, 87, rfl⟩
abbrev main_c_14 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_c_15 : Ref sig .tc := ⟨.hbm, 95, rfl⟩
abbrev main_v70 : Ref sig .tc := ⟨.hbm, 96, rfl⟩
abbrev main_v71 : Ref sig .tc := ⟨.hbm, 97, rfl⟩
abbrev main_c_16 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_17 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_call1_cst : Ref sig .tc := ⟨.hbm, 114, rfl⟩
abbrev main_call1_v0 : Ref sig .tc := ⟨.hbm, 115, rfl⟩
abbrev main_call1_cst_0 : Ref sig .tc := ⟨.hbm, 116, rfl⟩
abbrev main_call1_v1 : Ref sig .tc := ⟨.hbm, 117, rfl⟩
abbrev main_call1_v2 : Ref sig .tc := ⟨.hbm, 118, rfl⟩
abbrev main_call1_v3 : Ref sig .tc := ⟨.hbm, 119, rfl⟩
abbrev main_call1_v4 : Ref sig .tc := ⟨.hbm, 120, rfl⟩
abbrev main_call1_v5 : Ref sig .tc := ⟨.hbm, 121, rfl⟩
abbrev main_call1_v6 : Ref sig .tc := ⟨.hbm, 122, rfl⟩
abbrev main_call1_cst_1 : Ref sig .tc := ⟨.hbm, 123, rfl⟩
abbrev main_call1_v7 : Ref sig .tc := ⟨.hbm, 124, rfl⟩
abbrev main_call1_v8 : Ref sig .tc := ⟨.hbm, 125, rfl⟩
abbrev main_call1_v9 : Ref sig .tc := ⟨.hbm, 126, rfl⟩
abbrev main_call1_v10 : Ref sig .tc := ⟨.hbm, 127, rfl⟩
abbrev main_v86 : Ref sig .tc := ⟨.hbm, 128, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x500_S500x64_S100000x64_1_0_0_1_n_n_wf : DotDims.WF S100000x500 S500x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x40_S100000x40_1_0_0_1_n_n_wf : DotDims.WF S100000x64 S64x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def dot_S100000x500_S500x64_S100000x64_1_0_0_1_n_n : DotDims S100000x500 S500x64 S100000x64 where
  lhsContracting := [1]
  rhsContracting := [0]
  lhsNonContracting := [0]
  rhsNonContracting := [1]
  lhsBatch := []
  rhsBatch := []
  wf := dot_S100000x500_S500x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.KernelRun.lean ====
import proofs.«172768_j27908697489840_1_alg».proof.Proof.Gen.KernelIdeal.Frame

/-!
# The kernel program's run, every buffer named

The program is three grid computations among three stretches of host operations. Its generated frame proof runs the six
segments from the launch to the return and, of the final state, keeps only that the arguments are unchanged. The same run
is stated here with what it actually establishes about the final state: every buffer that lives across the regions ends
at the contents `Gen.W6 m ρ c` — the fold, from the launch memory, of each host stretch's operations and of each region's
write-backs. The value of the result buffer is then read off that fold.
-/

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, and any property of the final memory that follows
    from "every buffer living across the regions holds `W6 m ρ c`" holds of it. -/
theorem run_named {Q : PUnit × MemSt nD τ sig (Elt F) → Prop}
    (hQ : ∀ s : MemSt nD τ sig (Elt F),
      (∀ c : Dev nD, ∀ b ∈ Pipeline.ucRefs τ sig, s.mem (((c : Thread nD τ)).1, b) = W6 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := hQ)

end Cert.KernelIdeal.Run

end
-- ==== Proof.GcnStages.lean ====
import proofs.«172768_j27908697489840_1_alg».proof.ReferenceIdeal
import proofs.«172768_j27908697489840_1_alg».proof.Proof.Gen.ReferenceIdeal
import Idealize.ShloMosaic.PureOps.Ideal

/-!
# The three dense stages of the two-layer graph convolution, on extended reals

Between its two neighbourhood aggregations the network applies three dense maps, each acting on the rows of a
node-by-feature array independently:

* `dense1 x w` — the projection `x · w` of the node features;
* `dense2 a b w` — bias, rectifier, projection: `max (a + b, 0) · w`, the row vector `b` added to every row;
* `biasLogSoftmax a b` — bias, then the logarithm of the softmax along each row, in the shifted form
  `z − m − log Σ exp (z − m)` with `z = a + b` and `m` the row's maximum (taken against `−∞`).

They are written with the host operations of the reference program, so that the reference's own stages are these
functions by unfolding; the kernel's three grid computations are shown to produce the same arrays block by block.
-/

noncomputable section

namespace Cert.Gcn

open Idealize.ShloMosaic Cert.ReferenceIdeal Cert.ReferenceIdeal.Gen

/-- The projection `x · w`: entry `(n, j)` is `Σ k, x (n, k) * w (k, j)`. -/
def dense1 (x : FVec Ideal S100000x500 .f32) (w : FVec Ideal S500x64 .f32) : FVec Ideal S100000x64 .f32 :=
  Host.dotGeneral (F := Ideal) dot_S100000x500_S500x64_S100000x64_1_0_0_1_n_n none x w

/-- The row vector `b` added to every row of `a`, negative entries replaced by zero. -/
def biasRelu (a : FVec Ideal S100000x64 .f32) (b : FVec Ideal S1x64 .f32) : FVec Ideal S100000x64 .f32 :=
  maximumf (addf a (broadcastInDim S100000x64 ![0, 1] bcast_S1x64_S100000x64_0_1 b))
    (broadcastInDim S100000x64 ![] bcast_S_S100000x64 (constant (F := Ideal) S_ .f32 0x00000000#32))

/-- Bias, rectifier, projection: `max (a + b, 0) · w`. -/
def dense2 (a : FVec Ideal S100000x64 .f32) (b : FVec Ideal S1x64 .f32) (w : FVec Ideal S64x40 .f32) :
    FVec Ideal S100000x40 .f32 :=
  Host.dotGeneral (F := Ideal) dot_S100000x64_S64x40_S100000x40_1_0_0_1_n_n none (biasRelu a b) w

/-- The maximum of each row of `z`, taken against `−∞`. -/
def rowMax (z : FVec Ideal S100000x40 .f32) : FVec Ideal S100000 .f32 :=
  maximumf (broadcastInDim S100000 ![] bcast_S_S100000 (constant (F := Ideal) S_ .f32 0xFF800000#32))
    (Host.reduce (FloatOps.maximumf (F := Ideal)) z (constant (F := Ideal) S_ .f32 0xFF800000#32) reducesTo_S100000x40_S100000_d1 h_S_)

/-- Each row of `z` with its maximum subtracted. -/
def shifted (z : FVec Ideal S100000x40 .f32) : FVec Ideal S100000x40 .f32 :=
  subf z (broadcastInDim S100000x40 ![0, 1] bcast_S100000x1_S100000x40_0_1
    (broadcastInDim S100000x1 ![0] bcast_S100000_S100000x1_0 (rowMax z)))

/-- The logarithm of the sum of the exponentials of each shifted row, as a column. -/
def logSumExp (z : FVec Ideal S100000x40 .f32) : FVec Ideal S100000x1 .f32 :=
  Host.log (F := Ideal) (broadcastInDim S100000x1 ![0] bcast_S100000_S100000x1_0
    (Host.reduceAdd (F := Ideal) (Host.exp (F := Ideal) (shifted z)) (constant (F := Ideal) S_ .f32 0x00000000#32) reducesTo_S100000x40_S100000_d1 h_S_))

/-- The logarithm of the softmax along each row: `z − m − log Σ exp (z − m)`. -/
def logSoftmax (z : FVec Ideal S100000x40 .f32) : FVec Ideal S100000x40 .f32 :=
  subf (shifted z) (broadcastInDim S100000x40 ![0, 1] bcast_S100000x1_S100000x40_0_1 (logSumExp z))

/-- Bias, then the logarithm of the softmax along each row. -/
def biasLogSoftmax (a : FVec Ideal S100000x40 .f32) (b : FVec Ideal S1x40 .f32) : FVec Ideal S100000x40 .f32 :=
  logSoftmax (addf a (broadcastInDim S100000x40 ![0, 1] bcast_S1x40_S100000x40_0_1 b))

end Cert.Gcn

end
-- ==== Proof.GcnGraph.lean ====
import proofs.«172768_j27908697489840_1_alg».proof.Proof.GcnStages

/-!
# The graph side of the two-layer graph convolution, and the whole network

The edge list `e` (two rows: sources and targets of 1 600 000 edges) is extended by one self-loop per node, giving
1 700 000 pairs `(src k, dst k)`. A node's degree is the number of pairs it is the target of; an edge's weight is
`norm k = rsqrt (max (deg (src k)) 1) * rsqrt (max (deg (dst k)) 1)`. Aggregating an array `h` of node rows sends the
row `h (src k)`, scaled by `norm k`, to node `dst k` and adds up what each node receives:
`(agg h) n = Σ k with dst k = n, h (src k) * norm k`.

The network is `biasLogSoftmax (agg (dense2 (agg (dense1 x w₁)) b₁ w₂)) b₂`, with `agg` the aggregation along the
extended, weighted edge list. Gather and scatter are the host
operations themselves (an index outside the node range is clamped by the gather and dropped by the scatter); nothing
here opens them: both programs apply the same ones to the same arguments.
-/

noncomputable section

namespace Cert.Gcn

open Idealize.ShloMosaic Cert.ReferenceIdeal Cert.ReferenceIdeal.Gen

/-- The sources of the extended edge list: row 0 of `e`, then the node ids `0 … 99999`. -/
def src (e : IVec S2x1600000 32) : IVec S1700000 32 :=
  concatenate S1700000 0 [⟨S1600000, shapeCast S1600000 (extractStridedSlice S1x1600000 ![0, 0] e slices_S2x1600000_S1x1600000_0_0) shapeCasts_S1x1600000_S1600000⟩, ⟨S100000, iotaInDim S100000 32 0⟩] concatenates_S1600000_S100000_S1700000_d0

/-- The targets of the extended edge list: row 1 of `e`, then the node ids `0 … 99999`. -/
def dst (e : IVec S2x1600000 32) : IVec S1700000 32 :=
  concatenate S1700000 0 [⟨S1600000, shapeCast S1600000 (extractStridedSlice S1x1600000 ![1, 0] e slices_S2x1600000_S1x1600000_1_0) shapeCasts_S1x1600000_S1600000⟩, ⟨S100000, iotaInDim S100000 32 0⟩] concatenates_S1600000_S100000_S1700000_d0

/-- A negative index counts from the end: `i + 100000` where `i < 0`, else `i`. -/
def wrap (s : IVec S1700000 32) : IVec S1700000 32 :=
  select (cmpi .slt s (broadcastInDim S1700000 ![] bcast_S_S1700000 (constantI S_ 32 0#32)))
    (addi s (broadcastInDim S1700000 ![] bcast_S_S1700000 (constantI S_ 32 100000#32))) s

/-- An index vector as a column of one-component index vectors. -/
def col (s : IVec S1700000 32) : IVec S1700000x1 32 :=
  broadcastInDim S1700000x1 ![0] bcast_S1700000_S1700000x1_0 s

/-- The number of pairs each node is the target of, for a target vector `d`. -/
def degreeOf (d : IVec S1700000 32) : FVec Ideal S100000 .f32 :=
  Host.scatterAdd (F := Ideal) scatter_S100000_S1700000x1_S1700000_n_0_0_1
    (broadcastInDim S100000 ![] bcast_S_S100000 (constant (F := Ideal) S_ .f32 0x00000000#32))
    (col d)
    (broadcastInDim S1700000 ![] bcast_S_S1700000 (constant (F := Ideal) S_ .f32 0x3F800000#32))

/-- `rsqrt (max deg 1)` per node. -/
def dinvOf (d : IVec S1700000 32) : FVec Ideal S100000 .f32 :=
  Host.rsqrt (F := Ideal) (maximumf (degreeOf d) (broadcastInDim S100000 ![] bcast_S_S100000 (constant (F := Ideal) S_ .f32 0x3F800000#32)))

/-- The weight of each pair `(s k, d k)`: the product of `dinv` at its two ends. -/
def normOf (s d : IVec S1700000 32) : FVec Ideal S1700000 .f32 :=
  mulf (Host.gather gather_S100000_S1700000x1_S1700000_n_0_n_n_0_1_1 (dinvOf d) (col (wrap s)))
    (Host.gather gather_S100000_S1700000x1_S1700000_n_0_n_n_0_1_1 (dinvOf d) (col (wrap d)))

/-- Aggregation of 64-wide node rows along pairs `(s k, d k)` weighted by `n k`. -/
def aggregate64 (h : FVec Ideal S100000x64 .f32) (s d : IVec S1700000 32) (n : FVec Ideal S1700000 .f32) : FVec Ideal S100000x64 .f32 :=
  Host.scatterAdd (F := Ideal) scatter_S100000x64_S1700000x1_S1700000x64_1_0_0_1
    (broadcastInDim S100000x64 ![] bcast_S_S100000x64 (constant (F := Ideal) S_ .f32 0x00000000#32))
    (col d)
    (mulf (Host.gather gather_S100000x64_S1700000x1_S1700000x64_1_0_n_n_0_1_164 h (col (wrap s)))
      (broadcastInDim S1700000x64 ![0, 1] bcast_S1700000x1_S1700000x64_0_1
        (broadcastInDim S1700000x1 ![0] bcast_S1700000_S1700000x1_0 n)))

/-- Aggregation of 40-wide node rows along pairs `(s k, d k)` weighted by `n k`. -/
def aggregate40 (h : FVec Ideal S100000x40 .f32) (s d : IVec S1700000 32) (n : FVec Ideal S1700000 .f32) : FVec Ideal S100000x40 .f32 :=
  Host.scatterAdd (F := Ideal) scatter_S100000x40_S1700000x1_S1700000x40_1_0_0_1
    (broadcastInDim S100000x40 ![] bcast_S_S100000x40 (constant (F := Ideal) S_ .f32 0x00000000#32))
    (col d)
    (mulf (Host.gather gather_S100000x40_S1700000x1_S1700000x40_1_0_n_n_0_1_140 h (col (wrap s)))
      (broadcastInDim S1700000x40 ![0, 1] bcast_S1700000x1_S1700000x40_0_1
        (broadcastInDim S1700000x1 ![0] bcast_S1700000_S1700000x1_0 n)))

/-- A bias vector as a one-row array. -/
def row64 (b : FVec Ideal S64 .f32) : FVec Ideal S1x64 .f32 := broadcastInDim S1x64 ![1] bcast_S64_S1x64_1 b
/-- A bias vector as a one-row array. -/
def row40 (b : FVec Ideal S40 .f32) : FVec Ideal S1x40 .f32 := broadcastInDim S1x40 ![1] bcast_S40_S1x40_1 b

/-- The network: two weighted aggregations around the three dense stages. -/
def forward (x : FVec Ideal S100000x500 .f32) (e : IVec S2x1600000 32) (w1 : FVec Ideal S500x64 .f32)
    (b1 : FVec Ideal S64 .f32) (w2 : FVec Ideal S64x40 .f32) (b2 : FVec Ideal S40 .f32) : FVec Ideal S100000x40 .f32 :=
  biasLogSoftmax (aggregate40 (dense2 (aggregate64 (dense1 x w1) (src e) (dst e) (normOf (src e) (dst e))) (row64 b1) w2)
    (src e) (dst e) (normOf (src e) (dst e))) (row40 b2)

end Cert.Gcn

end
-- ==== Proof.KernelHost.lean ====
import proofs.«172768_j27908697489840_1_alg».proof.Proof.Gen.KernelIdeal.Launch
import proofs.«172768_j27908697489840_1_alg».proof.Proof.GcnGraph
import Idealize.ShloMosaic.Lib.StableHlo.Run
import Idealize.ShloMosaic.Lib.Pipeline.Value
import Idealize.ShloMosaic.Lib.ValueIdx
import Idealize.ShloMosaic.Lib.ValueLayout

/-!
# The host operations between the grid computations, read as the graph functions

Around its three grid computations the program applies three stretches of array operations:

* before the first, the edge list is extended by one self-loop per node (sources `src e`, targets `dst e`), the
  degree of each node is counted, and each pair gets the weight `rsqrt (max deg 1)` at its source times the same at
  its target (`normOf`);
* between the first and the second, the projected rows are aggregated along the weighted pairs (`aggregate64`),
  and the bias of the second dense stage is written as one row;
* between the second and the third, the rows of the second dense stage are aggregated along the same pairs
  (`aggregate40`), and the last bias is written as one row.

Each stretch is read here from ANY contents of the buffers it starts from, as those functions of the few buffers it
reads; gathers and scatters are never opened, both sides apply the same ones to the same arguments. The one place
where the two spellings differ is the bias row: a vector of `n` entries reshaped to `1 × n` against the same vector
repeated along a new leading axis of extent one, which agree entry by entry.
-/

noncomputable section

namespace Cert.KernelIdeal.Host

open Cert.KernelIdeal Cert.KernelIdeal.Gen Idealize.ShloMosaic Idealize.ShloMosaic.TcCoe Idealize.SL.Sem Idealize.ShloMosaic.StableHlo
open Idealize.ShloMosaic.ValueIdx

/-! ## A bias vector as one row

Writing a vector of `n` entries as a `1 × n` array by a change of shape, or by repeating it along a new leading
axis of extent one, gives the same array: entry `(0, i)` is entry `i` of the vector either way. -/

/-- A 64-vector reshaped to one row is the vector laid along the row. -/
theorem reshape_row64 (b : FVec Ideal S64 .f32) (h : S64.ShapeCasts S1x64) : shapeCast S1x64 b h = Cert.Gcn.row64 b := by
  funext j
  obtain ⟨u, i, rfl⟩ : ∃ (u : Fin 1) (i : Fin 64), j = ix2 u i := ⟨j 0, j 1, eq_ix2 j⟩
  refine (shapeCast_a_1a_apply b h u i).trans ?_
  unfold Cert.Gcn.row64
  exact (broadcastInDim_apply _ _ b (ix2 u i) (ix1 i) (fun a => by
    match a with
    | ⟨0, _⟩ => exact (if_neg (show ¬(64 : ℕ) = 1 by decide)).symm)).symm

/-- A 40-vector reshaped to one row is the vector laid along the row. -/
theorem reshape_row40 (b : FVec Ideal S40 .f32) (h : S40.ShapeCasts S1x40) : shapeCast S1x40 b h = Cert.Gcn.row40 b := by
  funext j
  obtain ⟨u, i, rfl⟩ : ∃ (u : Fin 1) (i : Fin 40), j = ix2 u i := ⟨j 0, j 1, eq_ix2 j⟩
  refine (shapeCast_a_1a_apply b h u i).trans ?_
  unfold Cert.Gcn.row40
  exact (broadcastInDim_apply _ _ b (ix2 u i) (ix1 i) (fun a => by
    match a with
    | ⟨0, _⟩ => exact (if_neg (show ¬(40 : ℕ) = 1 by decide)).symm)).symm

variable (W : Valuation τ sig (Elt Ideal))

/-! ## The three stretches, each from any contents -/

attribute [local irreducible] Host.gather Host.scatterAdd concatenate in
/-- The first stretch leaves the sources and targets of the extended edge list and the edge weights. -/
theorem host0 :
    after (hostOps0 (F := Ideal)) W (Proc.devRef .tc main_v3) = Cert.Gcn.src (W (Proc.devRef .tc main_arg1))
    ∧ after (hostOps0 (F := Ideal)) W (Proc.devRef .tc main_v6) = Cert.Gcn.dst (W (Proc.devRef .tc main_arg1))
    ∧ after (hostOps0 (F := Ideal)) W (Proc.devRef .tc main_v28)
        = Cert.Gcn.normOf (Cert.Gcn.src (W (Proc.devRef .tc main_arg1))) (Cert.Gcn.dst (W (Proc.devRef .tc main_arg1))) := by
  refine ⟨?_, ?_, ?_⟩ <;> after_results_simp <;> rfl

attribute [local irreducible] Host.gather Host.scatterAdd concatenate in
/-- The second stretch aggregates the projected rows along the weighted pairs. -/
theorem host1_aggregate :
    after (hostOps1 (F := Ideal)) W (Proc.devRef .tc main_v42)
      = Cert.Gcn.aggregate64 (W (Proc.devRef .tc main_v29)) (W (Proc.devRef .tc main_v3)) (W (Proc.devRef .tc main_v6)) (W (Proc.devRef .tc main_v28)) := by
  after_results_simp <;> rfl

/-- The bias of the second dense stage, as the row the grid computation reads. -/
theorem host1_bias : after (hostOps1 (F := Ideal)) W (Proc.devRef .tc main_v43) = Cert.Gcn.row64 (W (Proc.devRef .tc main_arg3)) := by
  after_results_simp
  exact reshape_row64 _ _

/-- The second stretch: the aggregated rows and the bias row. -/
theorem host1 :
    after (hostOps1 (F := Ideal)) W (Proc.devRef .tc main_v42)
      = Cert.Gcn.aggregate64 (W (Proc.devRef .tc main_v29)) (W (Proc.devRef .tc main_v3)) (W (Proc.devRef .tc main_v6)) (W (Proc.devRef .tc main_v28))
    ∧ after (hostOps1 (F := Ideal)) W (Proc.devRef .tc main_v43) = Cert.Gcn.row64 (W (Proc.devRef .tc main_arg3)) :=
  ⟨host1_aggregate W, host1_bias W⟩

attribute [local irreducible] Host.gather Host.scatterAdd concatenate in
/-- The third stretch aggregates the rows of the second dense stage along the same weighted pairs. -/
theorem host2_aggregate :
    after (hostOps2 (F := Ideal)) W (Proc.devRef .tc main_v57)
      = Cert.Gcn.aggregate40 (W (Proc.devRef .tc main_v44)) (W (Proc.devRef .tc main_v3)) (W (Proc.devRef .tc main_v6)) (W (Proc.devRef .tc main_v28)) := by
  after_results_simp <;> rfl

/-- The bias of the final stage, as the row the grid computation reads. -/
theorem host2_bias : after (hostOps2 (F := Ideal)) W (Proc.devRef .tc main_v58) = Cert.Gcn.row40 (W (Proc.devRef .tc main_arg5)) := by
  after_results_simp
  exact reshape_row40 _ _

/-- The third stretch: the aggregated rows and the bias row. -/
theorem host2 :
    after (hostOps2 (F := Ideal)) W (Proc.devRef .tc main_v57)
      = Cert.Gcn.aggregate40 (W (Proc.devRef .tc main_v44)) (W (Proc.devRef .tc main_v3)) (W (Proc.devRef .tc main_v6)) (W (Proc.devRef .tc main_v28))
    ∧ after (hostOps2 (F := Ideal)) W (Proc.devRef .tc main_v58) = Cert.Gcn.row40 (W (Proc.devRef .tc main_arg5)) :=
  ⟨host2_aggregate W, host2_bias W⟩

/-! What each stretch leaves alone, of the buffers a later stretch or a grid computation reads. -/

theorem keep0_arg0 : after (hostOps0 (F := Ideal)) W (Proc.devRef .tc main_arg0) = W (Proc.devRef .tc main_arg0) := by after_results_simp
theorem keep0_arg2 : after (hostOps0 (F := Ideal)) W (Proc.devRef .tc main_arg2) = W (Proc.devRef .tc main_arg2) := by after_results_simp
theorem keep0_arg3 : after (hostOps0 (F := Ideal)) W (Proc.devRef .tc main_arg3) = W (Proc.devRef .tc main_arg3) := by after_results_simp
theorem keep0_arg4 : after (hostOps0 (F := Ideal)) W (Proc.devRef .tc main_arg4) = W (Proc.devRef .tc main_arg4) := by after_results_simp
theorem keep0_arg5 : after (hostOps0 (F := Ideal)) W (Proc.devRef .tc main_arg5) = W (Proc.devRef .tc main_arg5) := by after_results_simp
theorem keep1_v3 : after (hostOps1 (F := Ideal)) W (Proc.devRef .tc main_v3) = W (Proc.devRef .tc main_v3) := by after_results_simp
theorem keep1_v6 : after (hostOps1 (F := Ideal)) W (Proc.devRef .tc main_v6) = W (Proc.devRef .tc main_v6) := by after_results_simp
theorem keep1_v28 : after (hostOps1 (F := Ideal)) W (Proc.devRef .tc main_v28) = W (Proc.devRef .tc main_v28) := by after_results_simp
theorem keep1_arg4 : after (hostOps1 (F := Ideal)) W (Proc.devRef .tc main_arg4) = W (Proc.devRef .tc main_arg4) := by after_results_simp
theorem keep1_arg5 : after (hostOps1 (F := Ideal)) W (Proc.devRef .tc main_arg5) = W (Proc.devRef .tc main_arg5) := by after_results_simp

end Cert.KernelIdeal.Host

end
-- ==== Proof.Region0.lean ====
import proofs.«172768_j27908697489840_1_alg».proof.Proof.Gen.KernelIdeal.Frame
import proofs.«172768_j27908697489840_1_alg».proof.Proof.GcnStages
import Idealize.ShloMosaic.Lib.Pipeline.Value
import Idealize.ShloMosaic.Lib.ValueIdx
import Idealize.ShloMosaic.Lib.ValueLayout
import Idealize.ShloMosaic.PureOps.Ideal.Laws

noncomputable section
open Idealize.ShloMosaic Idealize.ShloMosaic.TcCoe Idealize.SL.Sem
open Idealize.ShloMosaic.Pipeline (Dat)
open scoped BigOperators

/-!
# The first grid computation is the projection `x · w`

The features `x` (100000 rows of 500) are multiplied by the weights `w` (500 by 64) in 20 steps: step `t` takes
rows `5000 t … 5000 t + 4999` of `x`, all of `w`, and writes the 5000 by 64 product into the same rows of the
result. A row of a product depends on that row of the left factor only, so each step's block is the
corresponding block of the full product `Σ k, x (n, k) * w (k, j)`; the 20 blocks are disjoint and cover every
row (row `r` belongs to step `r / 5000`), hence after the last step the result array is the full product.

On extended reals the narrowing of both factors before the multiplication is the identity and the product is
accumulated onto zero, so a block's entry is exactly the sum of its 500 products, with no order or rounding left
in it; the same holds of the full product, and the two sums agree term by term.
-/

namespace Cert.KernelIdeal.Region0
open Cert.KernelIdeal Cert.KernelIdeal.Gen
open Idealize.ShloMosaic.ValueIdx

/-! ## One block's product at an entry

The contraction of a [5000,500] block with the [500,64] weights runs over the one shared axis; at the
extended reals the change of format on the way in is the identity and the accumulator is zero, so the
entry at row `p`, column `q` is the plain sum of the 500 products. -/

/-- The left operand's row is the output's row. -/
theorem blockLhs_row (i : S5000x64.Idx) (q : dot_S5000x500_S500x64_S5000x64_1_0_0_1_n_n.contr.Idx) :
    (dot_S5000x500_S500x64_S5000x64_1_0_0_1_n_n.lhsIdx i q 0).val = (i 0).val := by
  unfold DotDims.lhsIdx
  rw [dif_neg (show ¬(0 : Fin S5000x500.rank) ∈ dot_S5000x500_S500x64_S5000x64_1_0_0_1_n_n.lhsBatch by decide),
    dif_pos (show (0 : Fin S5000x500.rank) ∈ dot_S5000x500_S500x64_S5000x64_1_0_0_1_n_n.lhsNonContracting by decide)]
  rfl

/-- The left operand's column is the summation index. -/
theorem blockLhs_col (i : S5000x64.Idx) (q : dot_S5000x500_S500x64_S5000x64_1_0_0_1_n_n.contr.Idx) :
    (dot_S5000x500_S500x64_S5000x64_1_0_0_1_n_n.lhsIdx i q 1).val = (q ⟨0, by decide⟩).val :=
  dot_S5000x500_S500x64_S5000x64_1_0_0_1_n_n.lhsIdx_val_of_single rfl i q

/-- The right operand's row is the summation index. -/
theorem blockRhs_row (i : S5000x64.Idx) (q : dot_S5000x500_S500x64_S5000x64_1_0_0_1_n_n.contr.Idx) :
    (dot_S5000x500_S500x64_S5000x64_1_0_0_1_n_n.rhsIdx i q 0).val = (q ⟨0, by decide⟩).val :=
  dot_S5000x500_S500x64_S5000x64_1_0_0_1_n_n.rhsIdx_val_of_single rfl i q

/-- The right operand's column is the output's column. -/
theorem blockRhs_col (i : S5000x64.Idx) (q : dot_S5000x500_S500x64_S5000x64_1_0_0_1_n_n.contr.Idx) :
    (dot_S5000x500_S500x64_S5000x64_1_0_0_1_n_n.rhsIdx i q 1).val = (i 1).val := by
  unfold DotDims.rhsIdx
  rw [dif_neg (show ¬(1 : Fin S500x64.rank) ∈ dot_S5000x500_S500x64_S5000x64_1_0_0_1_n_n.rhsBatch by decide),
    dif_pos (show (1 : Fin S500x64.rank) ∈ dot_S5000x500_S500x64_S5000x64_1_0_0_1_n_n.rhsNonContracting by decide)]
  rfl

/-- Entry `(p, q)` of a block's product is `Σ k, x (p, k) * w (k, q)`. -/
theorem blockProduct_apply (x : Vec Ideal S5000x500 .f32) (w : Vec Ideal S500x64 .f32) (p : Fin 5000) (q : Fin 64) :
    k0_pay1 (F := Ideal) x w (ix2 p q) = ∑ k : Fin 500, x (ix2 p k) * w (ix2 k q) := by
  unfold k0_pay1
  refine (Ideal.matmul_constant_zero_apply dot_S5000x500_S500x64_S5000x64_1_0_0_1_n_n none _ _ (ix2 p q)).trans ?_
  rw [← Equiv.sum_comp (contrEquiv1 dot_S5000x500_S500x64_S5000x64_1_0_0_1_n_n 500 rfl rfl).symm]
  refine Finset.sum_congr rfl fun k _ => ?_
  have hk := contrEquiv1_symm_val dot_S5000x500_S500x64_S5000x64_1_0_0_1_n_n 500 rfl rfl k
  have el : dot_S5000x500_S500x64_S5000x64_1_0_0_1_n_n.lhsIdx (ix2 p q)
      ((contrEquiv1 dot_S5000x500_S500x64_S5000x64_1_0_0_1_n_n 500 rfl rfl).symm k) = ix2 p k :=
    funext fun a => Fin.ext (by
      match a with
      | ⟨0, _⟩ => exact blockLhs_row _ _
      | ⟨1, _⟩ => exact (blockLhs_col _ _).trans hk)
  have er : dot_S5000x500_S500x64_S5000x64_1_0_0_1_n_n.rhsIdx (ix2 p q)
      ((contrEquiv1 dot_S5000x500_S500x64_S5000x64_1_0_0_1_n_n 500 rfl rfl).symm k) = ix2 k q :=
    funext fun a => Fin.ext (by
      match a with
      | ⟨0, _⟩ => exact (blockRhs_row _ _).trans hk
      | ⟨1, _⟩ => exact blockRhs_col _ _)
  rw [el, er]
  rfl

/-! ## The whole projection at an entry -/

/-- The left operand's row is the output's row. -/
theorem fullLhs_row (i : S100000x64.Idx) (q : Cert.ReferenceIdeal.dot_S100000x500_S500x64_S100000x64_1_0_0_1_n_n.contr.Idx) :
    (Cert.ReferenceIdeal.dot_S100000x500_S500x64_S100000x64_1_0_0_1_n_n.lhsIdx i q 0).val = (i 0).val := by
  unfold DotDims.lhsIdx
  rw [dif_neg (show ¬(0 : Fin S100000x500.rank) ∈ Cert.ReferenceIdeal.dot_S100000x500_S500x64_S100000x64_1_0_0_1_n_n.lhsBatch by decide),
    dif_pos (show (0 : Fin S100000x500.rank) ∈ Cert.ReferenceIdeal.dot_S100000x500_S500x64_S100000x64_1_0_0_1_n_n.lhsNonContracting by decide)]
  rfl

/-- The left operand's column is the summation index. -/
theorem fullLhs_col (i : S100000x64.Idx) (q : Cert.ReferenceIdeal.dot_S100000x500_S500x64_S100000x64_1_0_0_1_n_n.contr.Idx) :
    (Cert.ReferenceIdeal.dot_S100000x500_S500x64_S100000x64_1_0_0_1_n_n.lhsIdx i q 1).val = (q ⟨0, by decide⟩).val :=
  Cert.ReferenceIdeal.dot_S100000x500_S500x64_S100000x64_1_0_0_1_n_n.lhsIdx_val_of_single rfl i q

/-- The right operand's row is the summation index. -/
theorem fullRhs_row (i : S100000x64.Idx) (q : Cert.ReferenceIdeal.dot_S100000x500_S500x64_S100000x64_1_0_0_1_n_n.contr.Idx) :
    (Cert.ReferenceIdeal.dot_S100000x500_S500x64_S100000x64_1_0_0_1_n_n.rhsIdx i q 0).val = (q ⟨0, by decide⟩).val :=
  Cert.ReferenceIdeal.dot_S100000x500_S500x64_S100000x64_1_0_0_1_n_n.rhsIdx_val_of_single rfl i q

/-- The right operand's column is the output's column. -/
theorem fullRhs_col (i : S100000x64.Idx) (q : Cert.ReferenceIdeal.dot_S100000x500_S500x64_S100000x64_1_0_0_1_n_n.contr.Idx) :
    (Cert.ReferenceIdeal.dot_S100000x500_S500x64_S100000x64_1_0_0_1_n_n.rhsIdx i q 1).val = (i 1).val := by
  unfold DotDims.rhsIdx
  rw [dif_neg (show ¬(1 : Fin S500x64.rank) ∈ Cert.ReferenceIdeal.dot_S100000x500_S500x64_S100000x64_1_0_0_1_n_n.rhsBatch by decide),
    dif_pos (show (1 : Fin S500x64.rank) ∈ Cert.ReferenceIdeal.dot_S100000x500_S500x64_S100000x64_1_0_0_1_n_n.rhsNonContracting by decide)]
  rfl

/-- Entry `(r, q)` of the projection is `Σ k, x (r, k) * w (k, q)`. -/
theorem dense1_apply (x : FVec Ideal S100000x500 .f32) (w : FVec Ideal S500x64 .f32) (r : Fin 100000) (q : Fin 64) :
    Cert.Gcn.dense1 x w (ix2 r q) = ∑ k : Fin 500, x (ix2 r k) * w (ix2 k q) := by
  unfold Cert.Gcn.dense1
  refine (Ideal.dotGeneral_apply Cert.ReferenceIdeal.dot_S100000x500_S500x64_S100000x64_1_0_0_1_n_n none .single x w (ix2 r q)).trans ?_
  rw [← Equiv.sum_comp (contrEquiv1 Cert.ReferenceIdeal.dot_S100000x500_S500x64_S100000x64_1_0_0_1_n_n 500 rfl rfl).symm]
  refine Finset.sum_congr rfl fun k _ => ?_
  have hk := contrEquiv1_symm_val Cert.ReferenceIdeal.dot_S100000x500_S500x64_S100000x64_1_0_0_1_n_n 500 rfl rfl k
  have el : Cert.ReferenceIdeal.dot_S100000x500_S500x64_S100000x64_1_0_0_1_n_n.lhsIdx (ix2 r q)
      ((contrEquiv1 Cert.ReferenceIdeal.dot_S100000x500_S500x64_S100000x64_1_0_0_1_n_n 500 rfl rfl).symm k) = ix2 r k :=
    funext fun a => Fin.ext (by
      match a with
      | ⟨0, _⟩ => exact fullLhs_row _ _
      | ⟨1, _⟩ => exact (fullLhs_col _ _).trans hk)
  have er : Cert.ReferenceIdeal.dot_S100000x500_S500x64_S100000x64_1_0_0_1_n_n.rhsIdx (ix2 r q)
      ((contrEquiv1 Cert.ReferenceIdeal.dot_S100000x500_S500x64_S100000x64_1_0_0_1_n_n 500 rfl rfl).symm k) = ix2 k q :=
    funext fun a => Fin.ext (by
      match a with
      | ⟨0, _⟩ => exact (fullRhs_row _ _).trans hk
      | ⟨1, _⟩ => exact fullRhs_col _ _)
  rw [el, er]

/-! ## Blocks of the arrays

Point `t` of the 20-point grid works on rows `5000 t … 5000 t + 4999`: the features and the result move in
blocks of 5000 rows at block index `(t, 0)`, the weights are one block at index `(0, 0)` throughout. An element
of a block sits in its array, on each axis, at block index × block extent + its coordinate in the block. -/

variable (V : (c : Dev nD) → (b : Ref sig .tc) → Buf (Elt Ideal) ((c : Thread nD τ).loc b))

/-- The zero offsets of a whole-buffer access. -/
theorem zeroOffsets : (![0, 0] : Fin 2 → Nat) = fun _ => 0 := funext fun a => by fin_cases a <;> rfl

/-- The block indices at every grid point. -/
theorem blockIndex : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `p` of the feature block at point `t` is row `5000 t + p` of the features. -/
theorem featureBlock_apply (c : Dev nD) (t : Fin cfg0.N) (y : S5000x500.Idx) (i : S100000x500.Idx)
    (h0 : (i 0).val = 5000 * t.val + (y 0).val) (h1 : (i 1).val = (y 1).val) :
    (iblk0 V c 0 t : Vec Ideal S5000x500 .f32) y = (V c main_arg0 : S100000x500.Idx → Elt Ideal .f32) i := by
  obtain ⟨e0, e1, -⟩ := blockIndex t
  unfold iblk0
  rw [View.read_apply]
  show V c main_arg0 (((cfg0.win 0).blk t).view.emb y) = V c main_arg0 i
  refine congrArg _ (funext fun a => Fin.ext ?_)
  match a with
  | ⟨0, _⟩ => show win0_0.index t (0 : Fin 2) * 5000 + 1 * (y 0).val = (i 0).val; omega
  | ⟨1, _⟩ => show win0_0.index t (1 : Fin 2) * 500 + 1 * (y 1).val = (i 1).val; omega

/-- The weight block at every point is the weight array. -/
theorem weightBlock_apply (c : Dev nD) (t : Fin cfg0.N) (y : S500x64.Idx) :
    (iblk0 V c 1 t : Vec Ideal S500x64 .f32) y = (V c main_arg2 : S500x64.Idx → Elt Ideal .f32) y := by
  obtain ⟨-, -, e0, e1, -⟩ := blockIndex t
  unfold iblk0
  rw [View.read_apply]
  show V c main_arg2 (((cfg0.win 1).blk t).view.emb y) = V c main_arg2 y
  refine congrArg _ (funext fun a => Fin.ext ?_)
  match a with
  | ⟨0, _⟩ => show win0_1.index t (0 : Fin 2) * 500 + 1 * (y 0).val = (y 0).val; omega
  | ⟨1, _⟩ => show win0_1.index t (1 : Fin 2) * 64 + 1 * (y 1).val = (y 1).val; omega

/-- Entry `(p, q)` of the product of point `t`'s blocks is entry `(5000 t + p, q)` of the projection: the same 500
    products, summed over the same index. -/
theorem blockProduct_eq_dense1 (c : Dev nD) (t : Fin cfg0.N) (p : Fin 5000) (q : Fin 64) (i : S100000x64.Idx)
    (h0 : (i 0).val = 5000 * t.val + p.val) (h1 : (i 1).val = q.val) :
    k0_pay1 (F := Ideal) (iblk0 V c 0 t) (iblk0 V c 1 t) (ix2 p q)
      = Cert.Gcn.dense1 (V c main_arg0) (V c main_arg2) i := by
  obtain ⟨r, q', rfl⟩ : ∃ (r : Fin 100000) (q' : Fin 64), i = ix2 r q' := ⟨i 0, i 1, eq_ix2 i⟩
  obtain rfl : q' = q := Fin.ext h1
  refine (blockProduct_apply (iblk0 V c 0 t) (iblk0 V c 1 t) p q').trans ?_
  refine Eq.trans ?_ (dense1_apply (V c main_arg0) (V c main_arg2) r q').symm
  refine Finset.sum_congr rfl fun k _ => ?_
  rw [featureBlock_apply V c t (ix2 p k) (ix2 r k) h0 rfl, weightBlock_apply V c t (ix2 k q')]

/-! ## What a point writes back, and the array after the last point -/

/-- Point `t` writes back block `t` of the projection. -/
theorem flushed_eq (c : Dev nD) (t : Fin cfg0.N) :
    (dat0 (F := Ideal) V c).flushed 2 t
      = ((cfg0.win 2).blk t).view.read (Elt Ideal) (Cert.Gcn.dense1 (V c main_arg0) (V c main_arg2)) := by
  show (cfg0.win 2).cut (grid0.coords t) ((dat0 (F := Ideal) V c).after 2 t) = _
  rw [after0_2]
  unfold out0_2
  rw [View.canon_unit_zero zeroOffsets]
  simp only [View.ld_unit_zero (S := S5000x500) zeroOffsets, View.ld_unit_zero (S := S500x64) zeroOffsets]
  obtain ⟨-, -, -, -, e0, e1⟩ := blockIndex t
  funext j
  obtain ⟨p, q, rfl⟩ : ∃ (p : Fin 5000) (q : Fin 64), j = ix2 p q := ⟨j 0, j 1, eq_ix2 j⟩
  show k0_pay1 (F := Ideal) (iblk0 V c 0 t) (iblk0 V c 1 t) (ix2 p q)
    = Cert.Gcn.dense1 (V c main_arg0) (V c main_arg2) (((cfg0.win 2).blk t).view.emb (ix2 p q))
  refine blockProduct_eq_dense1 V c t p q _ ?_ ?_
  · show win0_2.index t (0 : Fin 2) * 5000 + 1 * p.val = 5000 * t.val + p.val; omega
  · show win0_2.index t (1 : Fin 2) * 64 + 1 * q.val = q.val; omega

/-- An entry of the result lies in point `t`'s block iff each coordinate lies in the block's range on its axis. -/
theorem mem_block (t : Fin cfg0.N) (i : S100000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v29).slice (win0_2.rect t)).set ↔ _
  rw [View.set_slice_whole, Rect.mem_set_unit]
  exact Iff.rfl

/-- Row `r` lies in the block of point `r / 5000`, which writes back: the 20 blocks cover the result. -/
theorem covered (i : S100000x64.Idx) :
    ∃ t : Fin cfg0.N, (cfg0.win 2).flush t = true ∧ i ∈ ((cfg0.win 2).blk t).view.set := by
  have hN : cfg0.N = 20 := N_0
  have h0 : (i 0).val < 100000 := idx2_lt0 i
  have h1 : (i 1).val < 64 := idx2_lt1 i
  obtain ⟨t, ht⟩ : ∃ t : Fin cfg0.N, t.val = (i 0).val / 5000 := ⟨⟨(i 0).val / 5000, by omega⟩, rfl⟩
  obtain ⟨-, -, -, -, e0, e1⟩ := blockIndex t
  refine ⟨t, flush0_2 t, ?_⟩
  rw [mem_block]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 64 ≤ (i 1).val ∧ (i 1).val < win0_2.index t (1 : Fin 2) * 64 + 64
    omega

/-- After the grid the result array holds the projection `x · w` of the arrays the region found. -/
theorem value (c : Dev nD) :
    (dat0 (F := Ideal) V c).arrAt 2 cfg0.N = Cert.Gcn.dense1 (V c main_arg0) (V c main_arg2) :=
  (dat0 (F := Ideal) V c).arrAt_eq_of_cover 2 (Cert.Gcn.dense1 (V c main_arg0) (V c main_arg2))
    (fun t _ => flushed_eq V c t) (covered)

end Cert.KernelIdeal.Region0
end
-- ==== Proof.Region1.lean ====
import proofs.«172768_j27908697489840_1_alg».proof.Proof.Gen.KernelIdeal.Frame
import proofs.«172768_j27908697489840_1_alg».proof.Proof.GcnStages
import Idealize.ShloMosaic.Lib.Pipeline.Value
import Idealize.ShloMosaic.Lib.ValueIdx
import Idealize.ShloMosaic.Lib.ValueLayout
import Idealize.ShloMosaic.PureOps.Ideal.Laws

/-!
# The second grid computation: bias, rectifier, projection, block by block

The region reads the activations `a` ([100000, 64]) in twenty blocks of 5000 rows, the bias row `b` ([1, 64]) and the
weights `w` ([64, 40]) whole, and writes the output ([100000, 40]) in twenty blocks of 5000 rows. At each grid point the
body computes, for its block, `max (a + b, 0) · w`. Entry `(p, q)` of the block at point `t` is therefore
`Σ k : Fin 64, max (a (5000 t + p, k) + b (0, k)) 0 * w (k, q)`, which is entry `(5000 t + p, q)` of the target
`dense2 a b w`. The twenty blocks tile the output array, so the array ends holding the target.

The sections: one block of the stage at an entry; the target at an entry; each window's block as entries of its array,
what a grid point writes back, the cover, and the array after the last point.
-/

noncomputable section

open Idealize.ShloMosaic Idealize.ShloMosaic.TcCoe Idealize.SL.Sem
open Idealize.ShloMosaic.Pipeline (Dat)

namespace Cert.KernelIdeal.Region1
open Cert.KernelIdeal Cert.KernelIdeal.Gen
open Idealize.ShloMosaic.ValueIdx

/-! ## One block of the stage, entry by entry -/

/-- The left operand's row coordinate is the output entry's row. -/
theorem blockLhs_row (i : S5000x40.Idx) (r : dot_S5000x64_S64x40_S5000x40_1_0_0_1_n_n.contr.Idx) :
    (dot_S5000x64_S64x40_S5000x40_1_0_0_1_n_n.lhsIdx i r 0).val = (i 0).val := by
  unfold DotDims.lhsIdx
  rw [dif_neg (show ¬(0 : Fin S5000x64.rank) ∈ dot_S5000x64_S64x40_S5000x40_1_0_0_1_n_n.lhsBatch by decide),
    dif_pos (show (0 : Fin S5000x64.rank) ∈ dot_S5000x64_S64x40_S5000x40_1_0_0_1_n_n.lhsNonContracting by decide)]
  rfl

/-- The left operand's column coordinate is the contraction coordinate. -/
theorem blockLhs_col (i : S5000x40.Idx) (r : dot_S5000x64_S64x40_S5000x40_1_0_0_1_n_n.contr.Idx) :
    (dot_S5000x64_S64x40_S5000x40_1_0_0_1_n_n.lhsIdx i r 1).val = (r ⟨0, by decide⟩).val :=
  dot_S5000x64_S64x40_S5000x40_1_0_0_1_n_n.lhsIdx_val_of_single rfl i r

/-- The right operand's row coordinate is the contraction coordinate. -/
theorem blockRhs_row (i : S5000x40.Idx) (r : dot_S5000x64_S64x40_S5000x40_1_0_0_1_n_n.contr.Idx) :
    (dot_S5000x64_S64x40_S5000x40_1_0_0_1_n_n.rhsIdx i r 0).val = (r ⟨0, by decide⟩).val :=
  dot_S5000x64_S64x40_S5000x40_1_0_0_1_n_n.rhsIdx_val_of_single rfl i r

/-- The right operand's column coordinate is the output entry's column. -/
theorem blockRhs_col (i : S5000x40.Idx) (r : dot_S5000x64_S64x40_S5000x40_1_0_0_1_n_n.contr.Idx) :
    (dot_S5000x64_S64x40_S5000x40_1_0_0_1_n_n.rhsIdx i r 1).val = (i 1).val := by
  unfold DotDims.rhsIdx
  rw [dif_neg (show ¬(1 : Fin S64x40.rank) ∈ dot_S5000x64_S64x40_S5000x40_1_0_0_1_n_n.rhsBatch by decide),
    dif_pos (show (1 : Fin S64x40.rank) ∈ dot_S5000x64_S64x40_S5000x40_1_0_0_1_n_n.rhsNonContracting by decide)]
  rfl

/-- At output entry `(p, q)` and contraction coordinate `k` the left operand of the block product is read at `(p, k)`. -/
theorem blockLhs_index (p : Fin 5000) (q : Fin 40) (k : Fin 64) :
    dot_S5000x64_S64x40_S5000x40_1_0_0_1_n_n.lhsIdx (ix2 p q)
      ((contrEquiv1 dot_S5000x64_S64x40_S5000x40_1_0_0_1_n_n 64 rfl rfl).symm k) = ix2 p k := by
  have hk := contrEquiv1_symm_val dot_S5000x64_S64x40_S5000x40_1_0_0_1_n_n 64 rfl rfl k
  exact funext fun a => Fin.ext (by
    match a with
    | ⟨0, _⟩ => exact blockLhs_row _ _
    | ⟨1, _⟩ => exact (blockLhs_col _ _).trans hk)

/-- … and the right operand at `(k, q)`. -/
theorem blockRhs_index (p : Fin 5000) (q : Fin 40) (k : Fin 64) :
    dot_S5000x64_S64x40_S5000x40_1_0_0_1_n_n.rhsIdx (ix2 p q)
      ((contrEquiv1 dot_S5000x64_S64x40_S5000x40_1_0_0_1_n_n 64 rfl rfl).symm k) = ix2 k q := by
  have hk := contrEquiv1_symm_val dot_S5000x64_S64x40_S5000x40_1_0_0_1_n_n 64 rfl rfl k
  exact funext fun a => Fin.ext (by
    match a with
    | ⟨0, _⟩ => exact (blockRhs_row _ _).trans hk
    | ⟨1, _⟩ => exact blockRhs_col _ _)

/-- One block of the kernel's second stage at entry `(p, q)`: row `p` of the block plus the bias row, negative
    entries replaced by zero, times column `q` of the weights, summed over the 64 features. (The roundings to
    `bf16` are the identity on extended reals, and a product accumulated into zero is the plain sum.) -/
theorem payload_apply (x0 : Vec Ideal S5000x64 .f32) (x1 : Vec Ideal S1x64 .f32) (x2 : Vec Ideal S64x40 .f32)
    (p : Fin 5000) (q : Fin 40) :
    k1_pay1 (F := Ideal) x0 x1 x2 (ix2 p q)
      = ∑ k : Fin 64, max (x0 (ix2 p k) + x1 (ix2 (0 : Fin 1) k)) (Ideal.ofBits .f32 0x00000000#32)
          * x2 (ix2 k q) := by
  unfold k1_pay1
  refine (Ideal.matmul_constant_zero_apply dot_S5000x64_S64x40_S5000x40_1_0_0_1_n_n none _ _ (ix2 p q)).trans ?_
  rw [← Equiv.sum_comp (contrEquiv1 dot_S5000x64_S64x40_S5000x40_1_0_0_1_n_n 64 rfl rfl).symm]
  refine Finset.sum_congr rfl fun k _ => ?_
  rw [blockLhs_index p q k, blockRhs_index p q k]
  rw [truncf_apply, truncf_apply, maximumf_apply, addf_apply, broadcast_apply,
    shapeCast_self, shapeCast_self]
  rw [show broadcastTo S5000x64 x1 broadcasts_S1x64_S5000x64 (ix2 p k) = x1 (ix2 (0 : Fin 1) k) from
    broadcastTo_1b_ab_apply x1 broadcasts_S1x64_S5000x64 p k]
  rfl

/-! ## The target function, entry by entry -/

/-- The same four coordinate facts for the full-size product: the left operand's row is the output entry's row, -/
theorem denseLhs_row (i : Cert.ReferenceIdeal.S100000x40.Idx)
    (r : Cert.ReferenceIdeal.dot_S100000x64_S64x40_S100000x40_1_0_0_1_n_n.contr.Idx) :
    (Cert.ReferenceIdeal.dot_S100000x64_S64x40_S100000x40_1_0_0_1_n_n.lhsIdx i r 0).val = (i 0).val := by
  unfold DotDims.lhsIdx
  rw [dif_neg (show ¬(0 : Fin Cert.ReferenceIdeal.S100000x64.rank) ∈ Cert.ReferenceIdeal.dot_S100000x64_S64x40_S100000x40_1_0_0_1_n_n.lhsBatch by decide),
    dif_pos (show (0 : Fin Cert.ReferenceIdeal.S100000x64.rank) ∈ Cert.ReferenceIdeal.dot_S100000x64_S64x40_S100000x40_1_0_0_1_n_n.lhsNonContracting by decide)]
  rfl

/-- its column the contraction coordinate; -/
theorem denseLhs_col (i : Cert.ReferenceIdeal.S100000x40.Idx)
    (r : Cert.ReferenceIdeal.dot_S100000x64_S64x40_S100000x40_1_0_0_1_n_n.contr.Idx) :
    (Cert.ReferenceIdeal.dot_S100000x64_S64x40_S100000x40_1_0_0_1_n_n.lhsIdx i r 1).val = (r ⟨0, by decide⟩).val :=
  Cert.ReferenceIdeal.dot_S100000x64_S64x40_S100000x40_1_0_0_1_n_n.lhsIdx_val_of_single rfl i r

/-- the right operand's row is the contraction coordinate, -/
theorem denseRhs_row (i : Cert.ReferenceIdeal.S100000x40.Idx)
    (r : Cert.ReferenceIdeal.dot_S100000x64_S64x40_S100000x40_1_0_0_1_n_n.contr.Idx) :
    (Cert.ReferenceIdeal.dot_S100000x64_S64x40_S100000x40_1_0_0_1_n_n.rhsIdx i r 0).val = (r ⟨0, by decide⟩).val :=
  Cert.ReferenceIdeal.dot_S100000x64_S64x40_S100000x40_1_0_0_1_n_n.rhsIdx_val_of_single rfl i r

/-- its column the output entry's column. -/
theorem denseRhs_col (i : Cert.ReferenceIdeal.S100000x40.Idx)
    (r : Cert.ReferenceIdeal.dot_S100000x64_S64x40_S100000x40_1_0_0_1_n_n.contr.Idx) :
    (Cert.ReferenceIdeal.dot_S100000x64_S64x40_S100000x40_1_0_0_1_n_n.rhsIdx i r 1).val = (i 1).val := by
  unfold DotDims.rhsIdx
  rw [dif_neg (show ¬(1 : Fin Cert.ReferenceIdeal.S64x40.rank) ∈ Cert.ReferenceIdeal.dot_S100000x64_S64x40_S100000x40_1_0_0_1_n_n.rhsBatch by decide),
    dif_pos (show (1 : Fin Cert.ReferenceIdeal.S64x40.rank) ∈ Cert.ReferenceIdeal.dot_S100000x64_S64x40_S100000x40_1_0_0_1_n_n.rhsNonContracting by decide)]
  rfl

/-- The bias row added to row `n` of `a` and rectified, at feature `k`. -/
theorem biasRelu_apply (a : FVec Ideal Cert.ReferenceIdeal.S100000x64 .f32) (b : FVec Ideal Cert.ReferenceIdeal.S1x64 .f32)
    (n : Fin 100000) (k : Fin 64) :
    Cert.Gcn.biasRelu a b (ix2 n k) = max (a (ix2 n k) + b (ix2 (0 : Fin 1) k)) (Ideal.ofBits .f32 0x00000000#32) := by
  unfold Cert.Gcn.biasRelu
  rw [maximumf_apply, addf_apply]
  rw [broadcastInDim_apply _ Cert.ReferenceIdeal.Gen.bcast_S1x64_S100000x64_0_1 b (ix2 n k) (ix2 (0 : Fin 1) k) (fun ax =>
    match ax with
    | ⟨0, _⟩ => by show 0 = if (1 : Nat) = 1 then 0 else n.val; rw [if_pos rfl]
    | ⟨1, _⟩ => by show k.val = if (64 : Nat) = 1 then 0 else k.val; rw [if_neg (by decide)])]
  rw [broadcastInDim_apply _ Cert.ReferenceIdeal.Gen.bcast_S_S100000x64 _ (ix2 n k) (fun ax => ax.elim0) (fun ax => ax.elim0)]
  rfl

/-- The reference's second stage at entry `(n, q)`: the rectified biased row `n` times column `q` of the weights. -/
theorem dense2_apply (a : FVec Ideal Cert.ReferenceIdeal.S100000x64 .f32) (b : FVec Ideal Cert.ReferenceIdeal.S1x64 .f32)
    (w : FVec Ideal Cert.ReferenceIdeal.S64x40 .f32) (n : Fin 100000) (q : Fin 40) :
    Cert.Gcn.dense2 a b w (ix2 n q)
      = ∑ k : Fin 64, max (a (ix2 n k) + b (ix2 (0 : Fin 1) k)) (Ideal.ofBits .f32 0x00000000#32) * w (ix2 k q) := by
  unfold Cert.Gcn.dense2
  simp only [Host.dotGeneral]
  rw [Ideal.dotGeneral_apply,
    ← Equiv.sum_comp (contrEquiv1 Cert.ReferenceIdeal.dot_S100000x64_S64x40_S100000x40_1_0_0_1_n_n 64 rfl rfl).symm]
  refine Finset.sum_congr rfl fun k _ => ?_
  have hk := contrEquiv1_symm_val Cert.ReferenceIdeal.dot_S100000x64_S64x40_S100000x40_1_0_0_1_n_n 64 rfl rfl k
  have el : Cert.ReferenceIdeal.dot_S100000x64_S64x40_S100000x40_1_0_0_1_n_n.lhsIdx (ix2 n q)
      ((contrEquiv1 Cert.ReferenceIdeal.dot_S100000x64_S64x40_S100000x40_1_0_0_1_n_n 64 rfl rfl).symm k) = ix2 n k :=
    funext fun ax => Fin.ext (by
      match ax with
      | ⟨0, _⟩ => exact denseLhs_row _ _
      | ⟨1, _⟩ => exact (denseLhs_col _ _).trans hk)
  have er : Cert.ReferenceIdeal.dot_S100000x64_S64x40_S100000x40_1_0_0_1_n_n.rhsIdx (ix2 n q)
      ((contrEquiv1 Cert.ReferenceIdeal.dot_S100000x64_S64x40_S100000x40_1_0_0_1_n_n 64 rfl rfl).symm k) = ix2 k q :=
    funext fun ax => Fin.ext (by
      match ax with
      | ⟨0, _⟩ => exact (denseRhs_row _ _).trans hk
      | ⟨1, _⟩ => exact denseRhs_col _ _)
  rw [el, er, biasRelu_apply]

variable (V : (c : Dev nD) → (b : Ref sig .tc) → Buf (Elt Ideal) ((c : Thread nD τ).loc b))

/-! ## From blocks to the array -/

/-- The body reads and writes each staging buffer whole: its offsets are zero on both axes. -/
theorem zero_offsets : (![0, 0] : Fin 2 → Nat) = fun _ => 0 := funext fun a => by fin_cases a <;> rfl

/-- The index maps over the grid: at point `t` the row-blocked windows sit at block row `t`, the small operands
    at their one block. -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The block of the activations at point `t` is rows `5000 t … 5000 t + 4999` of the array. -/
theorem rows_block_apply (c : Dev nD) (t : Fin cfg1.N) (p : Fin 5000) (k : Fin 64) (i : S100000x64.Idx)
    (h0 : (i 0).val = 5000 * t.val + p.val) (h1 : (i 1).val = k.val) :
    (iblk1 (F := Ideal) V c 0 t : Vec Ideal S5000x64 .f32) (ix2 p k) = (V c main_v42 : S100000x64.Idx → Elt Ideal .f32) i := by
  obtain ⟨e0, e1, -⟩ := index_facts t
  unfold iblk1
  rw [View.read_apply]
  show V c main_v42 _ = V c main_v42 _
  congr 1
  funext a
  apply Fin.ext
  match a with
  | ⟨0, _⟩ => show win1_0.index t (0 : Fin 2) * 5000 + 1 * p.val = (i 0).val; rw [e0, h0]; omega
  | ⟨1, _⟩ => show win1_0.index t (1 : Fin 2) * 64 + 1 * k.val = (i 1).val; rw [e1, h1]; omega

/-- The block of the bias row is the bias row, at every point. -/
theorem bias_block_apply (c : Dev nD) (t : Fin cfg1.N) (k : Fin 64) :
    (iblk1 (F := Ideal) V c 1 t : Vec Ideal S1x64 .f32) (ix2 (0 : Fin 1) k)
      = (V c main_v43 : S1x64.Idx → Elt Ideal .f32) (ix2 (0 : Fin 1) k) := by
  obtain ⟨-, -, e0, e1, -⟩ := index_facts t
  unfold iblk1
  rw [View.read_apply]
  show V c main_v43 _ = V c main_v43 _
  congr 1
  funext a
  apply Fin.ext
  match a with
  | ⟨0, _⟩ => show win1_1.index t (0 : Fin 2) * 1 + 1 * 0 = 0; rw [e0]
  | ⟨1, _⟩ => show win1_1.index t (1 : Fin 2) * 64 + 1 * k.val = k.val; rw [e1]; omega

/-- The block of the weights is the weights, at every point. -/
theorem weights_block_apply (c : Dev nD) (t : Fin cfg1.N) (k : Fin 64) (q : Fin 40) :
    (iblk1 (F := Ideal) V c 2 t : Vec Ideal S64x40 .f32) (ix2 k q)
      = (V c main_arg4 : S64x40.Idx → Elt Ideal .f32) (ix2 k q) := by
  obtain ⟨-, -, -, -, e0, e1, -⟩ := index_facts t
  unfold iblk1
  rw [View.read_apply]
  show V c main_arg4 _ = V c main_arg4 _
  congr 1
  funext a
  apply Fin.ext
  match a with
  | ⟨0, _⟩ => show win1_2.index t (0 : Fin 2) * 64 + 1 * k.val = k.val; rw [e0]; omega
  | ⟨1, _⟩ => show win1_2.index t (1 : Fin 2) * 40 + 1 * q.val = q.val; rw [e1]; omega

/-- What grid point `t` writes back is block `t` of the target: entry `(p, q)` of the block is the 64-term sum over
    row `5000 t + p` of the activations, the bias row and column `q` of the weights, on both sides. -/
theorem flushed_eq (c : Dev nD) (t : Fin cfg1.N) :
    (dat1 (F := Ideal) V c).flushed 3 t
      = ((cfg1.win 3).blk t).view.read (Elt Ideal) (Cert.Gcn.dense2 (V c main_v42) (V c main_v43) (V c main_arg4)) := by
  show (cfg1.win 3).cut (grid1.coords t) ((dat1 V c).after 3 t) = _
  rw [after1_3]
  unfold out1_3
  rw [View.canon_unit_zero zero_offsets]
  simp only [View.ld_unit_zero (S := S5000x64) zero_offsets, View.ld_unit_zero (S := S1x64) zero_offsets,
    View.ld_unit_zero (S := S64x40) zero_offsets]
  funext j
  show k1_pay1 (F := Ideal) (iblk1 V c 0 t) (iblk1 V c 1 t) (iblk1 V c 2 t) j
    = Cert.Gcn.dense2 (V c main_v42) (V c main_v43) (V c main_arg4) (((cfg1.win 3).blk t).view.emb j)
  obtain ⟨p, q, rfl⟩ : ∃ (p : Fin 5000) (q : Fin 40), j = ix2 p q := ⟨j 0, j 1, eq_ix2 j⟩
  obtain ⟨-, -, -, -, -, -, e0, e1⟩ := index_facts t
  have ht : t.val < 20 := by have hN : cfg1.N = 20 := N_1; have := t.isLt; omega
  have hemb : ((cfg1.win 3).blk t).view.emb (ix2 p q)
      = (ix2 (⟨5000 * t.val + p.val, by have := p.isLt; omega⟩ : Fin 100000) q : S100000x40.Idx) := by
    funext a
    apply Fin.ext
    match a with
    | ⟨0, _⟩ => show win1_3.index t (0 : Fin 2) * 5000 + 1 * p.val = 5000 * t.val + p.val; rw [e0]; omega
    | ⟨1, _⟩ => show win1_3.index t (1 : Fin 2) * 40 + 1 * q.val = q.val; rw [e1]; omega
  rw [hemb]
  refine (payload_apply _ _ _ p q).trans ?_
  refine ((dense2_apply _ _ _ _ q).trans ?_).symm
  refine Finset.sum_congr rfl fun k _ => ?_
  rw [rows_block_apply V c t p k (ix2 (⟨5000 * t.val + p.val, by have := p.isLt; omega⟩ : Fin 100000) k) rfl rfl,
    bias_block_apply V c t k, weights_block_apply V c t k q]

/-- An entry of the output array is in the block of point `t` exactly when each coordinate is in the block's range. -/
theorem mem_block (t : Fin cfg1.N) (i : S100000x40.Idx) :
    i ∈ ((cfg1.win 3).blk t).view.set
      ↔ ∀ a : Fin 2, win1_3.index t a * S5000x40.size a ≤ (i a).val
          ∧ (i a).val < win1_3.index t a * S5000x40.size a + S5000x40.size a := by
  show i ∈ ((View.whole main_v44).slice (win1_3.rect t)).set ↔ _
  rw [View.set_slice_whole, Rect.mem_set_unit]
  exact Iff.rfl

/-- The twenty row blocks tile the output, each written with its rows of the target, so the array ends holding the
    target: row `r` lies in the block of point `r / 5000`. -/
theorem value (c : Dev nD) :
    (dat1 (F := Ideal) V c).arrAt 3 cfg1.N = Cert.Gcn.dense2 (V c main_v42) (V c main_v43) (V c main_arg4) :=
  (dat1 V c).arrAt_eq_of_cover 3 _ (fun t _ => flushed_eq V c t) fun i => by
    have hi0 : (i 0).val < 100000 := (i 0).isLt
    have hi1 : (i 1).val < 40 := (i 1).isLt
    have hN : cfg1.N = 20 := N_1
    obtain ⟨t, ht⟩ : ∃ t : Fin cfg1.N, t.val = (i 0).val / 5000 := ⟨⟨(i 0).val / 5000, by omega⟩, rfl⟩
    obtain ⟨-, -, -, -, -, -, e0, e1⟩ := index_facts t
    refine ⟨t, flush1_3 t, ?_⟩
    rw [mem_block]
    intro a
    match a with
    | ⟨0, _⟩ =>
      show win1_3.index t (0 : Fin 2) * 5000 ≤ (i 0).val ∧ (i 0).val < win1_3.index t (0 : Fin 2) * 5000 + 5000
      rw [e0, ht]; omega
    | ⟨1, _⟩ =>
      show win1_3.index t (1 : Fin 2) * 40 ≤ (i 1).val ∧ (i 1).val < win1_3.index t (1 : Fin 2) * 40 + 40
      rw [e1]; omega

end Cert.KernelIdeal.Region1
end
-- ==== Proof.Region2.lean ====
import proofs.«172768_j27908697489840_1_alg».proof.Proof.Gen.KernelIdeal.Frame
import proofs.«172768_j27908697489840_1_alg».proof.Proof.GcnStages
import Idealize.ShloMosaic.Lib.Pipeline.Value
import Idealize.ShloMosaic.Lib.ValueIdx
import Idealize.ShloMosaic.Lib.ValueLayout
import Idealize.ShloMosaic.PureOps.Ideal.Laws

/-!
# The third region: bias, then the logarithm of the softmax along each row

The third grid computation adds a bias row to a block of 5000 rows and takes, on each row of 40 lanes, the logarithm
of the softmax in the shifted form `z − m − log Σ exp (z − m)`, `m` the row's maximum. Rows are independent, so a
block of rows of the result is the result of the block of rows: the array the region leaves is the biased
log-softmax of the arrays it finds.

The proof reads both computations at an index as ONE function of a row of 40 extended reals (`rowLogSoftmax`): the
body's value at row `p`, lane `q` of a block (`pay_apply`), and the target function at row `r`, lane `q` of the whole
array (`target_apply`). Each lane maximum is the fold of `max` from `-∞` over the row's 40 lanes and each lane sum the
sum over them, on both sides. Then point `t` of the grid writes back block `t` of the target function
(`flushed_eq`: its input block is rows `5000 t … 5000 t + 4999`), the twenty blocks cover the array (`cover`), and
the array ends holding the target function (`value`).
-/

noncomputable section

open Idealize.ShloMosaic Idealize.ShloMosaic.TcCoe Idealize.SL.Sem
open Idealize.ShloMosaic.Pipeline (Dat)

namespace Cert.KernelIdeal.Region2

open Cert.KernelIdeal Cert.KernelIdeal.Gen
open Idealize.ShloMosaic.ValueIdx

/-! ## The row-wise function

Both programs compute, on each row of 40 lanes, the same function of that row: with `m` the row's maximum
(taken against `-∞`), lane `q` of the result is `(f q - m) - log (∑ k, exp (f k - m))`. -/

/-- The maximum of a row of 40 lanes, folded from `-∞` and taken once more against `-∞`. -/
def rowMaxOf (f : Fin 40 → EReal) : EReal :=
  max (Ideal.ofBits .f32 0xFF800000#32) ((Finset.univ : Finset (Fin 40)).fold max (Ideal.ofBits .f32 0xFF800000#32) f)

/-- The logarithm of the softmax of a row of 40 lanes, in the shifted form. -/
def rowLogSoftmax (f : Fin 40 → EReal) (q : Fin 40) : EReal :=
  (f q - rowMaxOf f) - Ideal.log (∑ k : Fin 40, Ideal.exp (f k - rowMaxOf f))

/-! ## Two layout operations read at an index: a vector as a column, a column copied along the rows -/

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two lane reductions of a block of rows, read at a row -/

/-- The index a one-axis reduction over the lanes inserts: row `p`, lane `k`. -/
theorem lift_lane {n : ℕ} (h : (⟨2, ![n, 40]⟩ : Shape).Reduces [1] ⟨1, ![n]⟩) (p : Fin n) (k : Fin 40) :
    h.lift (ix1 p) k = ix2 p k :=
  funext fun c => match c with | ⟨0, _⟩ => rfl | ⟨1, _⟩ => rfl

/-- The lane maximum of a block, at row `p`: the fold of `max` from `-∞` over the row's 40 lanes. -/
theorem laneMax_apply {n : ℕ} (z : FVec Ideal ⟨2, ![n, 40]⟩ .f32) (h : (⟨2, ![n, 40]⟩ : Shape).Reduces [1] ⟨1, ![n]⟩)
    (hφ : FKind.Formats .f32) (hacc : (0xFF800000#32 : BitVec 32) = FKind.maximumf.neutral .f32 hφ) (p : Fin n) :
    multiReduction .maximumf [1] ⟨1, ![n]⟩ z 0xFF800000#32 h hφ hacc (ix1 p)
      = (Finset.univ : Finset (Fin 40)).fold max (Ideal.ofBits .f32 0xFF800000#32) (fun k => z (ix2 p k)) := by
  refine (Ideal.multiReduction_maximumf_single z 0xFF800000#32 h hφ hacc (ix1 p)).trans ?_
  show (Finset.univ : Finset (Fin 40)).fold max (Ideal.ofBits .f32 0xFF800000#32) (fun k => z (h.lift (ix1 p) k)) = _
  exact congrArg (fun g : Fin 40 → EReal => (Finset.univ : Finset (Fin 40)).fold max (Ideal.ofBits .f32 0xFF800000#32) g)
    (funext fun k => congrArg z (lift_lane h p k))

/-- The lane sum of a block, at row `p`: the sum over the row's 40 lanes. -/
theorem laneSum_apply {n : ℕ} (w : FVec Ideal ⟨2, ![n, 40]⟩ .f32) (h : (⟨2, ![n, 40]⟩ : Shape).Reduces [1] ⟨1, ![n]⟩)
    (hφ : FKind.Formats .f32) (hacc : (0x00000000#32 : BitVec 32) = FKind.add.neutral .f32 hφ) (p : Fin n) :
    multiReduction .add [1] ⟨1, ![n]⟩ w 0x00000000#32 h hφ hacc (ix1 p) = ∑ k : Fin 40, w (ix2 p k) := by
  refine (Ideal.multiReduction_add_single w 0x00000000#32 h hφ hacc (ix1 p)).trans ?_
  show ∑ k : Fin 40, w (h.lift (ix1 p) k) = _
  exact Finset.sum_congr rfl fun k _ => congrArg w (lift_lane h p k)

/-! ## The block computation, stage by stage, at an index -/

/-- A block of rows with a one-row bias copied onto every row, at `(p, k)`. -/
theorem biased_apply {n : ℕ} (x0 : (⟨2, ![n, 40]⟩ : Shape).Idx → EReal) (x1 : (⟨2, ![1, 40]⟩ : Shape).Idx → EReal)
    (h0 : (⟨2, ![n, 40]⟩ : Shape).ShapeCasts ⟨2, ![n, 40]⟩) (h1 : (⟨2, ![1, 40]⟩ : Shape).ShapeCasts ⟨2, ![1, 40]⟩)
    (hb : (⟨2, ![1, 40]⟩ : Shape).Broadcasts ⟨2, ![n, 40]⟩) (p : Fin n) (k : Fin 40) :
    addf (F := Ideal) (φ := .f32) (shapeCast ⟨2, ![n, 40]⟩ x0 h0) (broadcastTo ⟨2, ![n, 40]⟩ (shapeCast ⟨2, ![1, 40]⟩ x1 h1) hb) (ix2 p k)
      = x0 (ix2 p k) + x1 (ix2 (0 : Fin 1) k) := by
  show shapeCast ⟨2, ![n, 40]⟩ x0 h0 (ix2 p k) + broadcastTo ⟨2, ![n, 40]⟩ (shapeCast ⟨2, ![1, 40]⟩ x1 h1) hb (ix2 p k) = _
  rw [shapeCast_self, broadcastTo_1b_ab_apply, shapeCast_self]

/-- The row maximum of a block, taken against `-∞`, at row `p`. -/
theorem blockRowMax_apply {n : ℕ} (z : FVec Ideal ⟨2, ![n, 40]⟩ .f32) (h : (⟨2, ![n, 40]⟩ : Shape).Reduces [1] ⟨1, ![n]⟩)
    (hφ : FKind.Formats .f32) (hacc : (0xFF800000#32 : BitVec 32) = 0xFF800000#32) (p : Fin n) :
    maximumf (F := Ideal) (broadcast ⟨1, ![n]⟩ (FloatOps.ofBits (F := Ideal) .f32 0xFF800000#32))
        (multiReduction .maximumf [1] ⟨1, ![n]⟩ z 0xFF800000#32 h hφ hacc) (ix1 p)
      = rowMaxOf (fun k => z (ix2 p k)) :=
  congrArg (max (Ideal.ofBits .f32 0xFF800000#32)) (laneMax_apply z h hφ hacc p)

/-- A block with a per-row value subtracted from every lane of its row, at `(p, k)`. -/
theorem shiftRows_apply {n : ℕ} (z : FVec Ideal ⟨2, ![n, 40]⟩ .f32) (m : FVec Ideal ⟨1, ![n]⟩ .f32)
    (hc : (⟨1, ![n]⟩ : Shape).ShapeCasts ⟨2, ![n, 1]⟩) (hb : (⟨2, ![n, 1]⟩ : Shape).Broadcasts ⟨2, ![n, 40]⟩)
    (p : Fin n) (k : Fin 40) :
    subf (F := Ideal) z (broadcastTo ⟨2, ![n, 40]⟩ (shapeCast ⟨2, ![n, 1]⟩ m hc) hb) (ix2 p k) = z (ix2 p k) - m (ix1 p) := by
  show z (ix2 p k) - broadcastTo ⟨2, ![n, 40]⟩ (shapeCast ⟨2, ![n, 1]⟩ m hc) hb (ix2 p k) = _
  rw [broadcastTo_a1_ab_apply, shapeCast_a_a1_apply]

/-- A block with the logarithm of each row's sum of exponentials subtracted from every lane of the row, at `(p, q)`. -/
theorem normaliseRows_apply {n : ℕ} (s : FVec Ideal ⟨2, ![n, 40]⟩ .f32) (h : (⟨2, ![n, 40]⟩ : Shape).Reduces [1] ⟨1, ![n]⟩)
    (hφ : FKind.Formats .f32) (hacc : (0x00000000#32 : BitVec 32) = FKind.add.neutral .f32 hφ)
    (hc : (⟨1, ![n]⟩ : Shape).ShapeCasts ⟨2, ![n, 1]⟩) (hb : (⟨2, ![n, 1]⟩ : Shape).Broadcasts ⟨2, ![n, 40]⟩)
    (p : Fin n) (q : Fin 40) :
    subf (F := Ideal) s (broadcastTo ⟨2, ![n, 40]⟩
        (log (F := Ideal) (shapeCast ⟨2, ![n, 1]⟩ (multiReduction .add [1] ⟨1, ![n]⟩ (exp (F := Ideal) s) 0x00000000#32 h hφ hacc) hc)) hb) (ix2 p q)
      = s (ix2 p q) - Ideal.log (∑ k : Fin 40, Ideal.exp (s (ix2 p k))) := by
  show s (ix2 p q) - broadcastTo ⟨2, ![n, 40]⟩
        (log (F := Ideal) (shapeCast ⟨2, ![n, 1]⟩ (multiReduction .add [1] ⟨1, ![n]⟩ (exp (F := Ideal) s) 0x00000000#32 h hφ hacc) hc)) hb (ix2 p q) = _
  rw [broadcastTo_a1_ab_apply]
  show s (ix2 p q) - Ideal.log (shapeCast ⟨2, ![n, 1]⟩ (multiReduction .add [1] ⟨1, ![n]⟩ (exp (F := Ideal) s) 0x00000000#32 h hφ hacc) hc (ix2 p (0 : Fin 1))) = _
  rw [shapeCast_a_a1_apply, laneSum_apply]
  rfl

/-- THE PAYLOAD AT AN INDEX: row `p`, lane `q` of what the body computes from a block of rows and the bias row is the
    row-wise function of row `p` of the block with the bias added. -/
theorem pay_apply (x0 : Vec Ideal S5000x40 .f32) (x1 : Vec Ideal S1x40 .f32) (p : Fin 5000) (q : Fin 40) :
    k2_pay1 (F := Ideal) x0 x1 (ix2 p q) = rowLogSoftmax (fun k => x0 (ix2 p k) + x1 (ix2 (0 : Fin 1) k)) q := by
  unfold k2_pay1
  refine (normaliseRows_apply _ _ _ _ _ _ p q).trans ?_
  simp only [shiftRows_apply]
  rw [blockRowMax_apply]
  simp only [biased_apply]
  rfl

/-! ## The target function at an index -/

/-- The host's one-row bias copied onto `n` rows reads, at `(r, k)`, the row at `k`. -/
theorem hostBiasRow_apply {α : Type} {n : ℕ} (dims : Fin 2 → Fin 2) (hd : dims = ![0, 1])
    (h : (⟨2, ![1, 40]⟩ : Shape).BroadcastsInDim ⟨2, ![n, 40]⟩ dims) (b : (⟨2, ![1, 40]⟩ : Shape).Idx → α) (r : Fin n) (k : Fin 40) :
    broadcastInDim ⟨2, ![n, 40]⟩ dims h b (ix2 r k) = b (ix2 (0 : Fin 1) k) := by
  subst hd
  refine broadcastInDim_apply _ h b (ix2 r k) (ix2 (0 : Fin 1) k) fun ax => ?_
  match ax with
  | ⟨0, _⟩ => rfl
  | ⟨1, _⟩ => rfl

/-- The host's column copied along `40` lanes reads, at `(r, k)`, the column at `r`. -/
theorem hostColumn_apply {α : Type} {n : ℕ} (dims : Fin 2 → Fin 2) (hd : dims = ![0, 1])
    (h : (⟨2, ![n, 1]⟩ : Shape).BroadcastsInDim ⟨2, ![n, 40]⟩ dims) (v : (⟨2, ![n, 1]⟩ : Shape).Idx → α) (r : Fin n) (k : Fin 40) :
    broadcastInDim ⟨2, ![n, 40]⟩ dims h v (ix2 r k) = v (ix2 r (0 : Fin 1)) := by
  subst hd
  refine broadcastInDim_apply _ h v (ix2 r k) (ix2 r (0 : Fin 1)) fun ax => ?_
  match ax with
  | ⟨0, _⟩ =>
    show r.val = if n = 1 then 0 else r.val
    split
    · have := r.isLt; omega
    · rfl
  | ⟨1, _⟩ => rfl

/-- The host's vector written as a column reads, at `(r, u)`, the vector at `r`. -/
theorem hostAsColumn_apply {α : Type} {n : ℕ} (dims : Fin 1 → Fin 2) (hd : dims = ![0])
    (h : (⟨1, ![n]⟩ : Shape).BroadcastsInDim ⟨2, ![n, 1]⟩ dims) (v : (⟨1, ![n]⟩ : Shape).Idx → α) (r : Fin n) (u : Fin 1) :
    broadcastInDim ⟨2, ![n, 1]⟩ dims h v (ix2 r u) = v (ix1 r) := by
  subst hd
  refine broadcastInDim_apply _ h v (ix2 r u) (ix1 r) fun ax => ?_
  match ax with
  | ⟨0, _⟩ =>
    show r.val = if n = 1 then 0 else r.val
    split
    · have := r.isLt; omega
    · rfl

/-- The host's lane maximum at row `r`: the fold of `max` from the initial value over the row's 40 lanes. -/
theorem hostLaneMax_apply {n : ℕ} (z : (⟨2, ![n, 40]⟩ : Shape).Idx → EReal) (init : (⟨0, ![]⟩ : Shape).Idx → EReal)
    (h' : (⟨2, ![n, 40]⟩ : Shape).ReducesTo [1] ⟨1, ![n]⟩) (h : (⟨2, ![n, 40]⟩ : Shape).Reduces [1] ⟨1, ![n]⟩)
    (hu : 0 < (⟨0, ![]⟩ : Shape).numel) (r : Fin n) :
    Host.reduce (FloatOps.maximumf (F := Ideal) (φ := .f32)) z init h' hu (ix1 r)
      = (Finset.univ : Finset (Fin 40)).fold max (init (Shape.Idx.first hu)) (fun k => z (ix2 r k)) := by
  refine (Host.reduce_eq_fold_single (FloatOps.maximumf (F := Ideal) (φ := .f32)) z init h' h hu (ix1 r)).trans ?_
  show (Finset.univ : Finset (Fin 40)).fold max (init (Shape.Idx.first hu)) (fun k => z (h.lift (ix1 r) k)) = _
  exact congrArg (fun g : Fin 40 → EReal => (Finset.univ : Finset (Fin 40)).fold max (init (Shape.Idx.first hu)) g)
    (funext fun k => congrArg z (lift_lane h r k))

/-- The host's lane sum at row `r`: the initial value plus the sum over the row's 40 lanes. -/
theorem hostLaneSum_apply {n : ℕ} (w : FVec Ideal ⟨2, ![n, 40]⟩ .f32) (init : (⟨0, ![]⟩ : Shape).Idx → EReal)
    (h' : (⟨2, ![n, 40]⟩ : Shape).ReducesTo [1] ⟨1, ![n]⟩) (h : (⟨2, ![n, 40]⟩ : Shape).Reduces [1] ⟨1, ![n]⟩)
    (hu : 0 < (⟨0, ![]⟩ : Shape).numel) (r : Fin n) :
    Host.reduceAdd (F := Ideal) w init h' hu (ix1 r) = init (Shape.Idx.first hu) + ∑ k : Fin 40, w (ix2 r k) := by
  refine (Ideal.hostReduceAdd_single h' h w (init (Shape.Idx.first hu)) (ix1 r)).trans ?_
  show init (Shape.Idx.first hu) + ∑ k : Fin 40, w (h.lift (ix1 r) k) = _
  exact congrArg (init (Shape.Idx.first hu) + ·) (Finset.sum_congr rfl fun k _ => congrArg w (lift_lane h r k))

/-- The 100000-row array reduces over its lanes to a 100000-vector. -/
theorem reduces_rows : (⟨2, ![100000, 40]⟩ : Shape).Reduces [1] ⟨1, ![100000]⟩ := by decide

/-- The row maximum of the whole array at row `r`. -/
theorem rowMax_apply (z : FVec Ideal ⟨2, ![100000, 40]⟩ .f32) (r : Fin 100000) :
    Cert.Gcn.rowMax z (ix1 r) = rowMaxOf (fun k => z (ix2 r k)) := by
  unfold Cert.Gcn.rowMax
  rw [maximumf_apply, hostLaneMax_apply z _ _ reduces_rows _ r]
  rfl

/-- The shifted array at `(r, k)`. -/
theorem shifted_apply (z : FVec Ideal ⟨2, ![100000, 40]⟩ .f32) (r : Fin 100000) (k : Fin 40) :
    Cert.Gcn.shifted z (ix2 r k) = z (ix2 r k) - rowMaxOf (fun k => z (ix2 r k)) := by
  unfold Cert.Gcn.shifted
  rw [subf_apply, hostColumn_apply _ rfl, hostAsColumn_apply _ rfl, rowMax_apply]

/-- The host's exponential at an index. -/
theorem hostExp_apply {s : Shape} (x : FVec Ideal s .f32) (i : s.Idx) : Host.exp (F := Ideal) x i = Ideal.exp (x i) := rfl

/-- The host's logarithm at an index. -/
theorem hostLog_apply {s : Shape} (x : FVec Ideal s .f32) (i : s.Idx) : Host.log (F := Ideal) x i = Ideal.log (x i) := rfl

/-- The logarithm of the sum of the exponentials of the shifted row `r`. -/
theorem logSumExp_apply (z : FVec Ideal ⟨2, ![100000, 40]⟩ .f32) (r : Fin 100000) :
    Cert.Gcn.logSumExp z (ix2 r (0 : Fin 1))
      = Ideal.log (∑ k : Fin 40, Ideal.exp (z (ix2 r k) - rowMaxOf (fun k => z (ix2 r k)))) := by
  unfold Cert.Gcn.logSumExp
  rw [hostLog_apply, hostAsColumn_apply _ rfl, hostLaneSum_apply _ _ _ reduces_rows _ r]
  simp only [hostExp_apply, shifted_apply]
  rw [constant_apply, Ideal.ofBits_zero_f32, zero_add]

/-- THE TARGET AT AN INDEX: row `r`, lane `q` of the biased log-softmax is the row-wise function of row `r` of the
    array with the bias added. -/
theorem target_apply (a : FVec Ideal ⟨2, ![100000, 40]⟩ .f32) (b : FVec Ideal ⟨2, ![1, 40]⟩ .f32) (r : Fin 100000) (q : Fin 40) :
    Cert.Gcn.biasLogSoftmax a b (ix2 r q) = rowLogSoftmax (fun k => a (ix2 r k) + b (ix2 (0 : Fin 1) k)) q := by
  unfold Cert.Gcn.biasLogSoftmax Cert.Gcn.logSoftmax
  rw [subf_apply, hostColumn_apply _ rfl, shifted_apply, logSumExp_apply]
  simp only [addf_apply, hostBiasRow_apply _ rfl]
  rfl

/-! ## From blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps, decided over the grid: at point `t` the row-blocked input and the output sit at block
    `(t, 0)`, the bias row at block `(0, 0)`. -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The row-blocked input's block at point `t` is rows `5000 t … 5000 t + 4999` of its array. -/
theorem rowsBlock_apply (c : Dev nD) (t : Fin cfg2.N) (x : S5000x40.Idx) (i : S100000x40.Idx)
    (h0 : (i 0).val = 5000 * t.val + (x 0).val) (h1 : (i 1).val = (x 1).val) :
    (iblk2 V c 0 t : Vec Ideal S5000x40 .f32) x = (V c main_v57 : S100000x40.Idx → Elt Ideal .f32) i := by
  obtain ⟨e0, e1, -, -, -, -⟩ := index_facts t
  unfold iblk2
  rw [View.read_apply]
  show V c main_v57 _ = V c main_v57 _
  congr 1
  funext a
  apply Fin.ext
  match a with
  | ⟨0, _⟩ => show win2_0.index t (0 : Fin 2) * 5000 + 1 * (x 0).val = (i 0).val; rw [e0, h0]; omega
  | ⟨1, _⟩ => show win2_0.index t (1 : Fin 2) * 40 + 1 * (x 1).val = (i 1).val; rw [e1, h1]; omega

/-- The bias row's block at every point is the whole row. -/
theorem biasBlock_apply (c : Dev nD) (t : Fin cfg2.N) (x : S1x40.Idx) :
    (iblk2 V c 1 t : Vec Ideal S1x40 .f32) x = (V c main_v58 : S1x40.Idx → Elt Ideal .f32) x := by
  obtain ⟨-, -, e2, e3, -, -⟩ := index_facts t
  unfold iblk2
  rw [View.read_apply]
  show V c main_v58 _ = V c main_v58 _
  congr 1
  funext a
  apply Fin.ext
  match a with
  | ⟨0, _⟩ => show win2_1.index t (0 : Fin 2) * 1 + 1 * (x 0).val = (x 0).val; rw [e2]; omega
  | ⟨1, _⟩ => show win2_1.index t (1 : Fin 2) * 40 + 1 * (x 1).val = (x 1).val; rw [e3]; omega

/-- WHAT POINT `t` WRITES BACK is block `t` of the biased log-softmax of the arrays as the region finds them. -/
theorem flushed_eq (c : Dev nD) (t : Fin cfg2.N) :
    (dat2 (F := Ideal) V c).flushed 2 t
      = ((cfg2.win 2).blk t).view.read (Elt Ideal) (Cert.Gcn.biasLogSoftmax (V c main_v57) (V c main_v58)) := by
  show (cfg2.win 2).cut (grid2.coords t) ((dat2 V c).after 2 t) = _
  rw [after2_2]
  unfold out2_2
  rw [View.canon_unit_zero zero_offsets]
  simp only [View.ld_unit_zero (S := S5000x40) zero_offsets, View.ld_unit_zero (S := S1x40) zero_offsets]
  obtain ⟨-, -, -, -, e4, e5⟩ := index_facts t
  have hN : cfg2.N = 20 := N_2
  have ht : t.val < 20 := hN ▸ t.isLt
  funext j
  obtain ⟨p, q, rfl⟩ : ∃ (p : Fin 5000) (q : Fin 40), j = ix2 p q := ⟨j 0, j 1, eq_ix2 j⟩
  have hr : 5000 * t.val + p.val < 100000 := by have := p.isLt; omega
  show k2_pay1 (F := Ideal) (iblk2 V c 0 t) (iblk2 V c 1 t) (ix2 p q)
    = Cert.Gcn.biasLogSoftmax (V c main_v57) (V c main_v58) (((cfg2.win 2).blk t).view.emb (ix2 p q))
  have hemb : ((cfg2.win 2).blk t).view.emb (ix2 p q) = (ix2 (⟨5000 * t.val + p.val, hr⟩ : Fin 100000) q : S100000x40.Idx) := by
    funext a
    apply Fin.ext
    match a with
    | ⟨0, _⟩ => show win2_2.index t (0 : Fin 2) * 5000 + 1 * p.val = 5000 * t.val + p.val; rw [e4]; omega
    | ⟨1, _⟩ => show win2_2.index t (1 : Fin 2) * 40 + 1 * q.val = q.val; rw [e5]; omega
  rw [hemb]
  refine (pay_apply _ _ p q).trans ((target_apply _ _ _ q).trans ?_).symm
  refine congrArg (fun g : Fin 40 → EReal => rowLogSoftmax g q) (funext fun k => ?_)
  exact congrArg₂ (fun u v : EReal => u + v)
    (rowsBlock_apply V c t (ix2 p k) (ix2 (⟨5000 * t.val + p.val, hr⟩ : Fin 100000) k) rfl rfl).symm
    (biasBlock_apply V c t (ix2 (0 : Fin 1) k)).symm

/-- An index of the array is in point `t`'s block iff each coordinate is in the block's range on its axis. -/
theorem mem_blk (t : Fin cfg2.N) (i : S100000x40.Idx) :
    i ∈ ((cfg2.win 2).blk t).view.set ↔ ∀ a : Fin 2, win2_2.index t a * S5000x40.size a ≤ (i a).val
      ∧ (i a).val < win2_2.index t a * S5000x40.size a + S5000x40.size a := by
  show i ∈ ((View.whole main_v59).slice (win2_2.rect t)).set ↔ _
  rw [View.set_slice_whole, Rect.mem_set_unit]
  exact Iff.rfl

/-- Every index of the array lies in some point's block: row `r` in the block of point `r / 5000`. -/
theorem cover (i : S100000x40.Idx) :
    ∃ t : Fin cfg2.N, (cfg2.win 2).flush t = true ∧ i ∈ ((cfg2.win 2).blk t).view.set := by
  have hi0 : (i 0).val < 100000 := (i 0).isLt
  have hi1 : (i 1).val < 40 := (i 1).isLt
  have hN : cfg2.N = 20 := N_2
  have hlt : (i 0).val / 5000 < cfg2.N := by rw [hN]; omega
  refine ⟨⟨(i 0).val / 5000, hlt⟩, flush2_2 _, ?_⟩
  rw [mem_blk]
  obtain ⟨-, -, -, -, e4, e5⟩ := index_facts ⟨(i 0).val / 5000, hlt⟩
  intro a
  match a with
  | ⟨0, _⟩ =>
    show win2_2.index ⟨(i 0).val / 5000, hlt⟩ (0 : Fin 2) * 5000 ≤ (i 0).val
      ∧ (i 0).val < win2_2.index ⟨(i 0).val / 5000, hlt⟩ (0 : Fin 2) * 5000 + 5000
    rw [e4]
    show (i 0).val / 5000 * 5000 ≤ (i 0).val ∧ (i 0).val < (i 0).val / 5000 * 5000 + 5000
    omega
  | ⟨1, _⟩ =>
    show win2_2.index ⟨(i 0).val / 5000, hlt⟩ (1 : Fin 2) * 40 ≤ (i 1).val
      ∧ (i 1).val < win2_2.index ⟨(i 0).val / 5000, hlt⟩ (1 : Fin 2) * 40 + 40
    rw [e5]
    omega

/-- THE ARRAY after the third region: the biased log-softmax of the arrays the region finds. -/
theorem value (c : Dev nD) :
    (dat2 (F := Ideal) V c).arrAt 2 cfg2.N = Cert.Gcn.biasLogSoftmax (V c main_v57) (V c main_v58) :=
  (dat2 (F := Ideal) V c).arrAt_eq_of_cover 2 (Cert.Gcn.biasLogSoftmax (V c main_v57) (V c main_v58))
    (fun t _ => flushed_eq V c t) cover

end Cert.KernelIdeal.Region2

end
-- ==== Proof.KernelValue.lean ====
import proofs.«172768_j27908697489840_1_alg».proof.Proof.KernelRun
import proofs.«172768_j27908697489840_1_alg».proof.Proof.KernelHost
import proofs.«172768_j27908697489840_1_alg».proof.Proof.Region0
import proofs.«172768_j27908697489840_1_alg».proof.Proof.Region1
import proofs.«172768_j27908697489840_1_alg».proof.Proof.Region2

/-!
# The kernel program's result is the network of its arguments

The contents of the buffers at the six segment boundaries are read backwards from the result: the last region's
array is `biasLogSoftmax` of what the host stretch before it left (the second aggregation and the bias row), that
aggregation reads the second region's array, which is `dense2` of the first aggregation and the bias row, which reads
the first region's array `dense1` of the features and the weights; the index vectors and the edge weights come from
the first host stretch and no later segment writes them.
-/

noncomputable section

namespace Cert.KernelIdeal.Value

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-! ## After the first host stretch -/

theorem w1_src (c : Dev nD) : W1 m ρ c (Proc.devRef .tc main_v3) = Cert.Gcn.src (m ((c.tc : Thread nD τ).loc main_arg1)) := (Host.host0 (W0 m ρ c)).1
theorem w1_dst (c : Dev nD) : W1 m ρ c (Proc.devRef .tc main_v6) = Cert.Gcn.dst (m ((c.tc : Thread nD τ).loc main_arg1)) := (Host.host0 (W0 m ρ c)).2.1
theorem w1_norm (c : Dev nD) : W1 m ρ c (Proc.devRef .tc main_v28)
    = Cert.Gcn.normOf (Cert.Gcn.src (m ((c.tc : Thread nD τ).loc main_arg1))) (Cert.Gcn.dst (m ((c.tc : Thread nD τ).loc main_arg1))) := (Host.host0 (W0 m ρ c)).2.2
theorem w1_arg0 (c : Dev nD) : W1 m ρ c (Proc.devRef .tc main_arg0) = (m ((c.tc : Thread nD τ).loc main_arg0)) := Host.keep0_arg0 (W0 m ρ c)
theorem w1_arg2 (c : Dev nD) : W1 m ρ c (Proc.devRef .tc main_arg2) = (m ((c.tc : Thread nD τ).loc main_arg2)) := Host.keep0_arg2 (W0 m ρ c)
theorem w1_arg3 (c : Dev nD) : W1 m ρ c (Proc.devRef .tc main_arg3) = (m ((c.tc : Thread nD τ).loc main_arg3)) := Host.keep0_arg3 (W0 m ρ c)
theorem w1_arg4 (c : Dev nD) : W1 m ρ c (Proc.devRef .tc main_arg4) = (m ((c.tc : Thread nD τ).loc main_arg4)) := Host.keep0_arg4 (W0 m ρ c)
theorem w1_arg5 (c : Dev nD) : W1 m ρ c (Proc.devRef .tc main_arg5) = (m ((c.tc : Thread nD τ).loc main_arg5)) := Host.keep0_arg5 (W0 m ρ c)

/-! ## After the first region: its output array is the projection; nothing else moved -/

theorem w2_h1 (c : Dev nD) : W2 m ρ c (Proc.devRef .tc main_v29) = Cert.Gcn.dense1 (m ((c.tc : Thread nD τ).loc main_arg0)) (m ((c.tc : Thread nD τ).loc main_arg2)) := by
  refine ((W2_arr m ρ c 2).trans (Region0.value (V1 m ρ) c)).trans ?_
  show Cert.Gcn.dense1 (W1 m ρ c (Proc.devRef .tc main_arg0)) (W1 m ρ c (Proc.devRef .tc main_arg2)) = _
  rw [w1_arg0, w1_arg2]
theorem w2_src (c : Dev nD) : W2 m ρ c (Proc.devRef .tc main_v3) = Cert.Gcn.src (m ((c.tc : Thread nD τ).loc main_arg1)) :=
  (W2_of_ne m ρ c main_v3 (by decide)).trans (w1_src m ρ c)
theorem w2_dst (c : Dev nD) : W2 m ρ c (Proc.devRef .tc main_v6) = Cert.Gcn.dst (m ((c.tc : Thread nD τ).loc main_arg1)) :=
  (W2_of_ne m ρ c main_v6 (by decide)).trans (w1_dst m ρ c)
theorem w2_norm (c : Dev nD) : W2 m ρ c (Proc.devRef .tc main_v28)
    = Cert.Gcn.normOf (Cert.Gcn.src (m ((c.tc : Thread nD τ).loc main_arg1))) (Cert.Gcn.dst (m ((c.tc : Thread nD τ).loc main_arg1))) :=
  (W2_of_ne m ρ c main_v28 (by decide)).trans (w1_norm m ρ c)
theorem w2_arg3 (c : Dev nD) : W2 m ρ c (Proc.devRef .tc main_arg3) = (m ((c.tc : Thread nD τ).loc main_arg3)) :=
  (W2_of_ne m ρ c main_arg3 (by decide)).trans (w1_arg3 m ρ c)
theorem w2_arg4 (c : Dev nD) : W2 m ρ c (Proc.devRef .tc main_arg4) = (m ((c.tc : Thread nD τ).loc main_arg4)) :=
  (W2_of_ne m ρ c main_arg4 (by decide)).trans (w1_arg4 m ρ c)
theorem w2_arg5 (c : Dev nD) : W2 m ρ c (Proc.devRef .tc main_arg5) = (m ((c.tc : Thread nD τ).loc main_arg5)) :=
  (W2_of_ne m ρ c main_arg5 (by decide)).trans (w1_arg5 m ρ c)

/-! ## After the second host stretch: the first aggregation and the bias row -/

/-- The first aggregation, of the projected features. -/
abbrev agg1 (c : Dev nD) : FVec Ideal Cert.ReferenceIdeal.S100000x64 .f32 :=
  Cert.Gcn.aggregate64 (Cert.Gcn.dense1 (m ((c.tc : Thread nD τ).loc main_arg0)) (m ((c.tc : Thread nD τ).loc main_arg2))) (Cert.Gcn.src (m ((c.tc : Thread nD τ).loc main_arg1))) (Cert.Gcn.dst (m ((c.tc : Thread nD τ).loc main_arg1)))
    (Cert.Gcn.normOf (Cert.Gcn.src (m ((c.tc : Thread nD τ).loc main_arg1))) (Cert.Gcn.dst (m ((c.tc : Thread nD τ).loc main_arg1))))

theorem w3_agg (c : Dev nD) : W3 m ρ c (Proc.devRef .tc main_v42) = agg1 m c := by
  refine (Host.host1 (W2 m ρ c)).1.trans ?_
  rw [w2_h1, w2_src, w2_dst, w2_norm]
theorem w3_row (c : Dev nD) : W3 m ρ c (Proc.devRef .tc main_v43) = Cert.Gcn.row64 (m ((c.tc : Thread nD τ).loc main_arg3)) := by
  refine (Host.host1 (W2 m ρ c)).2.trans ?_
  rw [w2_arg3]
theorem w3_src (c : Dev nD) : W3 m ρ c (Proc.devRef .tc main_v3) = Cert.Gcn.src (m ((c.tc : Thread nD τ).loc main_arg1)) :=
  (Host.keep1_v3 (W2 m ρ c)).trans (w2_src m ρ c)
theorem w3_dst (c : Dev nD) : W3 m ρ c (Proc.devRef .tc main_v6) = Cert.Gcn.dst (m ((c.tc : Thread nD τ).loc main_arg1)) :=
  (Host.keep1_v6 (W2 m ρ c)).trans (w2_dst m ρ c)
theorem w3_norm (c : Dev nD) : W3 m ρ c (Proc.devRef .tc main_v28)
    = Cert.Gcn.normOf (Cert.Gcn.src (m ((c.tc : Thread nD τ).loc main_arg1))) (Cert.Gcn.dst (m ((c.tc : Thread nD τ).loc main_arg1))) :=
  (Host.keep1_v28 (W2 m ρ c)).trans (w2_norm m ρ c)
theorem w3_arg4 (c : Dev nD) : W3 m ρ c (Proc.devRef .tc main_arg4) = (m ((c.tc : Thread nD τ).loc main_arg4)) :=
  (Host.keep1_arg4 (W2 m ρ c)).trans (w2_arg4 m ρ c)
theorem w3_arg5 (c : Dev nD) : W3 m ρ c (Proc.devRef .tc main_arg5) = (m ((c.tc : Thread nD τ).loc main_arg5)) :=
  (Host.keep1_arg5 (W2 m ρ c)).trans (w2_arg5 m ρ c)

/-! ## After the second region: its output array is the second dense stage -/

/-- The hidden layer after its dense stage. -/
abbrev h2 (c : Dev nD) : FVec Ideal Cert.ReferenceIdeal.S100000x40 .f32 :=
  Cert.Gcn.dense2 (agg1 m c) (Cert.Gcn.row64 (m ((c.tc : Thread nD τ).loc main_arg3))) (m ((c.tc : Thread nD τ).loc main_arg4))

theorem w4_h2 (c : Dev nD) : W4 m ρ c (Proc.devRef .tc main_v44) = h2 m c := by
  refine ((W4_arr m ρ c 3).trans (Region1.value (V3 m ρ) c)).trans ?_
  show Cert.Gcn.dense2 (W3 m ρ c (Proc.devRef .tc main_v42)) (W3 m ρ c (Proc.devRef .tc main_v43)) (W3 m ρ c (Proc.devRef .tc main_arg4)) = _
  rw [w3_agg, w3_row, w3_arg4]
theorem w4_src (c : Dev nD) : W4 m ρ c (Proc.devRef .tc main_v3) = Cert.Gcn.src (m ((c.tc : Thread nD τ).loc main_arg1)) :=
  (W4_of_ne m ρ c main_v3 (by decide)).trans (w3_src m ρ c)
theorem w4_dst (c : Dev nD) : W4 m ρ c (Proc.devRef .tc main_v6) = Cert.Gcn.dst (m ((c.tc : Thread nD τ).loc main_arg1)) :=
  (W4_of_ne m ρ c main_v6 (by decide)).trans (w3_dst m ρ c)
theorem w4_norm (c : Dev nD) : W4 m ρ c (Proc.devRef .tc main_v28)
    = Cert.Gcn.normOf (Cert.Gcn.src (m ((c.tc : Thread nD τ).loc main_arg1))) (Cert.Gcn.dst (m ((c.tc : Thread nD τ).loc main_arg1))) :=
  (W4_of_ne m ρ c main_v28 (by decide)).trans (w3_norm m ρ c)
theorem w4_arg5 (c : Dev nD) : W4 m ρ c (Proc.devRef .tc main_arg5) = (m ((c.tc : Thread nD τ).loc main_arg5)) :=
  (W4_of_ne m ρ c main_arg5 (by decide)).trans (w3_arg5 m ρ c)

/-! ## After the third host stretch and the third region -/

theorem w5_agg (c : Dev nD) : W5 m ρ c (Proc.devRef .tc main_v57)
    = Cert.Gcn.aggregate40 (h2 m c) (Cert.Gcn.src (m ((c.tc : Thread nD τ).loc main_arg1))) (Cert.Gcn.dst (m ((c.tc : Thread nD τ).loc main_arg1)))
        (Cert.Gcn.normOf (Cert.Gcn.src (m ((c.tc : Thread nD τ).loc main_arg1))) (Cert.Gcn.dst (m ((c.tc : Thread nD τ).loc main_arg1)))) := by
  refine (Host.host2 (W4 m ρ c)).1.trans ?_
  rw [w4_h2, w4_src, w4_dst, w4_norm]
theorem w5_row (c : Dev nD) : W5 m ρ c (Proc.devRef .tc main_v58) = Cert.Gcn.row40 (m ((c.tc : Thread nD τ).loc main_arg5)) := by
  refine (Host.host2 (W4 m ρ c)).2.trans ?_
  rw [w4_arg5]

/-- The result buffer ends at the network of the six arguments. -/
theorem result (c : Dev nD) : W6 m ρ c (Proc.devRef .tc main_v59) = Cert.Gcn.forward (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine ((W6_arr m ρ c 2).trans (Region2.value (V5 m ρ) c)).trans ?_
  show Cert.Gcn.biasLogSoftmax (W5 m ρ c (Proc.devRef .tc main_v57)) (W5 m ρ c (Proc.devRef .tc main_v58)) = _
  rw [w5_agg, w5_row]
  rfl

/-- The kernel program's run: the result at the network of the arguments, the arguments unchanged. -/
theorem run : θ_run defs (onTc (τ := τ) (main (F := Ideal))) ⟨m, fun _ => 0, ρ⟩ fun r => ∀ c : Dev nD,
      r.2.mem ((c.tc : Thread nD τ).loc main_v59) = Cert.Gcn.forward (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Run.run_named m ρ fun s h c =>
    ⟨(h c _ (mem_uc main_v59 (by decide))).trans (result m ρ c),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c)⟩

end Cert.KernelIdeal.Value

end
-- ==== Proof.RefRun.lean ====
import proofs.«172768_j27908697489840_1_alg».proof.Proof.Gen.ReferenceIdeal
import proofs.«172768_j27908697489840_1_alg».proof.Proof.GcnGraph
import Idealize.ShloMosaic.Lib.StableHlo.Run
import Idealize.ShloMosaic.Lib.Pipeline.Frame

/-!
# The reference program's run, read as the network

The reference is a straight line of host operations. It is cut here into four stretches — the edge list with the
first projection and the edge weights; the first aggregation with the second dense stage; the edge weights once more
(the reference computes them a second time, from the same edge list); the second aggregation with the final stage —
and each stretch is read, from ANY buffer contents it starts from, as the corresponding functions of `Cert.Gcn` of
the few buffers it reads. Chained from the launch contents, the result buffer ends at `Cert.Gcn.forward` of the six
arguments, and no stretch writes an argument.
-/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The extended edge list, the first projection and the edge weights (operations 1 … 37 of @main). -/
def ops1 : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_arg0 main_arg2 main_v7 ((fun l r => Host.dotGeneral dot_S100000x500_S500x64_S100000x64_1_0_0_1_n_n none l r) : (⟨S100000x500, .f32⟩ : BufTy).Contents (Elt F) → (⟨S500x64, .f32⟩ : BufTy).Contents (Elt F) → (⟨S100000x64, .f32⟩ : BufTy).Contents (Elt F)),
    nullary main_cst (constant S_ .f32 0x3F800000#32),
    unary main_cst main_v8 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v6 main_v10 (broadcastInDim S1700000x1 ![0] bcast_S1700000_S1700000x1_0 : (⟨S1700000, .i32⟩ : BufTy).Contents (Elt F) → (⟨S1700000x1, .i32⟩ : BufTy).Contents (Elt F)),
    ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x3F800000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (maximumf : (⟨S100000, .f32⟩ : BufTy).Contents (Elt F) → (⟨S100000, .f32⟩ : BufTy).Contents (Elt F) → (⟨S100000, .f32⟩ : BufTy).Contents (Elt F)),
    unary main_v13 main_v14 (Host.rsqrt : (⟨S100000, .f32⟩ : BufTy).Contents (Elt F) → (⟨S100000, .f32⟩ : BufTy).Contents (Elt F)),
    nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v3 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_2 (constantI S_ 32 100000#32),
    unary main_c_2 main_v17 (broadcastInDim S1700000 ![] bcast_S_S1700000 : (⟨S_, .i32⟩ : BufTy).Contents (Elt F) → (⟨S1700000, .i32⟩ : BufTy).Contents (Elt F)),
    binary main_v3 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_3 (constantI S_ 32 0#32),
    unary main_c_3 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_4 (constantI S_ 32 100000#32),
    unary main_c_4 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)) ]

/-- The first aggregation, then bias, rectifier and the second projection (operations 38 … 60). -/
def ops2 : List (HloOp τ sig (Elt F)) :=
  [ nullary main_c_5 (constantI S_ 32 0#32),
    unary main_c_5 main_v30 (broadcastInDim S1700000 ![] bcast_S_S1700000 : (⟨S_, .i32⟩ : BufTy).Contents (Elt F) → (⟨S1700000, .i32⟩ : BufTy).Contents (Elt F)),
    binary main_v3 main_v30 main_v31 (cmpi .slt : (⟨S1700000, .i32⟩ : BufTy).Contents (Elt F) → (⟨S1700000, .i32⟩ : BufTy).Contents (Elt F) → (⟨S1700000, .i1⟩ : BufTy).Contents (Elt F)),
    nullary main_c_6 (constantI S_ 32 100000#32),
    unary main_c_6 main_v32 (broadcastInDim S1700000 ![] bcast_S_S1700000 : (⟨S_, .i32⟩ : BufTy).Contents (Elt F) → (⟨S1700000, .i32⟩ : BufTy).Contents (Elt F)),
    binary main_v3 main_v32 main_v33 (addi : (⟨S1700000, .i32⟩ : BufTy).Contents (Elt F) → (⟨S1700000, .i32⟩ : BufTy).Contents (Elt F) → (⟨S1700000, .i32⟩ : BufTy).Contents (Elt F)),
    ternary main_v31 main_v33 main_v3 main_v34 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v34 main_v35 (broadcastInDim S1700000x1 ![0] bcast_S1700000_S1700000x1_0 : (⟨S1700000, .i32⟩ : BufTy).Contents (Elt F) → (⟨S1700000x1, .i32⟩ : BufTy).Contents (Elt F)),
    binary main_v7 main_v35 main_v36 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v29 main_v37 (broadcastInDim S1700000x1 ![0] bcast_S1700000_S1700000x1_0 : (⟨S1700000, .f32⟩ : BufTy).Contents (Elt F) → (⟨S1700000x1, .f32⟩ : BufTy).Contents (Elt F)),
    unary main_v37 main_v38 (broadcastInDim S1700000x64 ![0, 1] bcast_S1700000x1_S1700000x64_0_1 : (⟨S1700000x1, .f32⟩ : BufTy).Contents (Elt F) → (⟨S1700000x64, .f32⟩ : BufTy).Contents (Elt F)),
    binary main_v36 main_v38 main_v39 (mulf : (⟨S1700000x64, .f32⟩ : BufTy).Contents (Elt F) → (⟨S1700000x64, .f32⟩ : BufTy).Contents (Elt F) → (⟨S1700000x64, .f32⟩ : BufTy).Contents (Elt F)),
    nullary main_cst_7 (constant S_ .f32 0x00000000#32),
    unary main_cst_7 main_v40 (broadcastInDim S100000x64 ![] bcast_S_S100000x64 : (⟨S_, .f32⟩ : BufTy).Contents (Elt F) → (⟨S100000x64, .f32⟩ : BufTy).Contents (Elt F)),
    unary main_v6 main_v41 (broadcastInDim S1700000x1 ![0] bcast_S1700000_S1700000x1_0 : (⟨S1700000, .i32⟩ : BufTy).Contents (Elt F) → (⟨S1700000x1, .i32⟩ : BufTy).Contents (Elt F)),
    ternary main_v40 main_v41 main_v39 main_v42 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg3 main_v43 (broadcastInDim S1x64 ![1] bcast_S64_S1x64_1 : (⟨S64, .f32⟩ : BufTy).Contents (Elt F) → (⟨S1x64, .f32⟩ : BufTy).Contents (Elt F)),
    unary main_v43 main_v44 (broadcastInDim S100000x64 ![0, 1] bcast_S1x64_S100000x64_0_1 : (⟨S1x64, .f32⟩ : BufTy).Contents (Elt F) → (⟨S100000x64, .f32⟩ : BufTy).Contents (Elt F)),
    binary main_v42 main_v44 main_v45 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x64, .f32⟩) main_call0_v0) (broadcastInDim S100000x64 ![] bcast_S_S100000x64),
    TRef.binary (TRef.of (T := ⟨S100000x64, .f32⟩) main_v45) (TRef.of (T := ⟨S100000x64, .f32⟩) main_call0_v0) (TRef.of (T := ⟨S100000x64, .f32⟩) main_v46) maximumf,
    binary main_v46 main_arg4 main_v47 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)) ]

/-- The edge weights, computed a second time (operations 61 … 89). -/
def ops3 : List (HloOp τ sig (Elt F)) :=
  [ nullary main_cst_8 (constant S_ .f32 0x3F800000#32),
    unary main_cst_8 main_v48 (broadcastInDim S1700000 ![] bcast_S_S1700000 : (⟨S_, .f32⟩ : BufTy).Contents (Elt F) → (⟨S1700000, .f32⟩ : BufTy).Contents (Elt F)),
    nullary main_cst_9 (constant S_ .f32 0x00000000#32),
    unary main_cst_9 main_v49 (broadcastInDim S100000 ![] bcast_S_S100000 : (⟨S_, .f32⟩ : BufTy).Contents (Elt F) → (⟨S100000, .f32⟩ : BufTy).Contents (Elt F)),
    unary main_v6 main_v50 (broadcastInDim S1700000x1 ![0] bcast_S1700000_S1700000x1_0 : (⟨S1700000, .i32⟩ : BufTy).Contents (Elt F) → (⟨S1700000x1, .i32⟩ : BufTy).Contents (Elt F)),
    ternary main_v49 main_v50 main_v48 main_v51 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_10 (constant S_ .f32 0x3F800000#32),
    unary main_cst_10 main_v52 (broadcastInDim S100000 ![] bcast_S_S100000 : (⟨S_, .f32⟩ : BufTy).Contents (Elt F) → (⟨S100000, .f32⟩ : BufTy).Contents (Elt F)),
    binary main_v51 main_v52 main_v53 (maximumf : (⟨S100000, .f32⟩ : BufTy).Contents (Elt F) → (⟨S100000, .f32⟩ : BufTy).Contents (Elt F) → (⟨S100000, .f32⟩ : BufTy).Contents (Elt F)),
    unary main_v53 main_v54 (Host.rsqrt : (⟨S100000, .f32⟩ : BufTy).Contents (Elt F) → (⟨S100000, .f32⟩ : BufTy).Contents (Elt F)),
    nullary main_c_11 (constantI S_ 32 0#32),
    unary main_c_11 main_v55 (broadcastInDim S1700000 ![] bcast_S_S1700000 : (⟨S_, .i32⟩ : BufTy).Contents (Elt F) → (⟨S1700000, .i32⟩ : BufTy).Contents (Elt F)),
    binary main_v3 main_v55 main_v56 (cmpi .slt : (⟨S1700000, .i32⟩ : BufTy).Contents (Elt F) → (⟨S1700000, .i32⟩ : BufTy).Contents (Elt F) → (⟨S1700000, .i1⟩ : BufTy).Contents (Elt F)),
    nullary main_c_12 (constantI S_ 32 100000#32),
    unary main_c_12 main_v57 (broadcastInDim S1700000 ![] bcast_S_S1700000 : (⟨S_, .i32⟩ : BufTy).Contents (Elt F) → (⟨S1700000, .i32⟩ : BufTy).Contents (Elt F)),
    binary main_v3 main_v57 main_v58 (addi : (⟨S1700000, .i32⟩ : BufTy).Contents (Elt F) → (⟨S1700000, .i32⟩ : BufTy).Contents (Elt F) → (⟨S1700000, .i32⟩ : BufTy).Contents (Elt F)),
    ternary main_v56 main_v58 main_v3 main_v59 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v59 main_v60 (broadcastInDim S1700000x1 ![0] bcast_S1700000_S1700000x1_0 : (⟨S1700000, .i32⟩ : BufTy).Contents (Elt F) → (⟨S1700000x1, .i32⟩ : BufTy).Contents (Elt F)),
    binary main_v54 main_v60 main_v61 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_13 (constantI S_ 32 0#32),
    unary main_c_13 main_v62 (broadcastInDim S1700000 ![] bcast_S_S1700000 : (⟨S_, .i32⟩ : BufTy).Contents (Elt F) → (⟨S1700000, .i32⟩ : BufTy).Contents (Elt F)),
    binary main_v6 main_v62 main_v63 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v64 (broadcastInDim S1700000 ![] bcast_S_S1700000 : (⟨S_, .i32⟩ : BufTy).Contents (Elt F) → (⟨S1700000, .i32⟩ : BufTy).Contents (Elt F)),
    binary main_v6 main_v64 main_v65 (addi : (⟨S1700000, .i32⟩ : BufTy).Contents (Elt F) → (⟨S1700000, .i32⟩ : BufTy).Contents (Elt F) → (⟨S1700000, .i32⟩ : BufTy).Contents (Elt F)),
    ternary main_v63 main_v65 main_v6 main_v66 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v66 main_v67 (broadcastInDim S1700000x1 ![0] bcast_S1700000_S1700000x1_0 : (⟨S1700000, .i32⟩ : BufTy).Contents (Elt F) → (⟨S1700000x1, .i32⟩ : BufTy).Contents (Elt F)),
    binary main_v54 main_v67 main_v68 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v61 main_v68 main_v69 (mulf : (⟨S1700000, .f32⟩ : BufTy).Contents (Elt F) → (⟨S1700000, .f32⟩ : BufTy).Contents (Elt F) → (⟨S1700000, .f32⟩ : BufTy).Contents (Elt F)) ]

/-- The second aggregation, then bias and the logarithm of the softmax (operations 90 … 123; the outlined function's operations stand at its call). -/
def ops4 : List (HloOp τ sig (Elt F)) :=
  [ nullary main_c_15 (constantI S_ 32 0#32),
    unary main_c_15 main_v70 (broadcastInDim S1700000 ![] bcast_S_S1700000 : (⟨S_, .i32⟩ : BufTy).Contents (Elt F) → (⟨S1700000, .i32⟩ : BufTy).Contents (Elt F)),
    binary main_v3 main_v70 main_v71 (cmpi .slt : (⟨S1700000, .i32⟩ : BufTy).Contents (Elt F) → (⟨S1700000, .i32⟩ : BufTy).Contents (Elt F) → (⟨S1700000, .i1⟩ : BufTy).Contents (Elt F)),
    nullary main_c_16 (constantI S_ 32 100000#32),
    unary main_c_16 main_v72 (broadcastInDim S1700000 ![] bcast_S_S1700000 : (⟨S_, .i32⟩ : BufTy).Contents (Elt F) → (⟨S1700000, .i32⟩ : BufTy).Contents (Elt F)),
    binary main_v3 main_v72 main_v73 (addi : (⟨S1700000, .i32⟩ : BufTy).Contents (Elt F) → (⟨S1700000, .i32⟩ : BufTy).Contents (Elt F) → (⟨S1700000, .i32⟩ : BufTy).Contents (Elt F)),
    ternary main_v71 main_v73 main_v3 main_v74 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v74 main_v75 (broadcastInDim S1700000x1 ![0] bcast_S1700000_S1700000x1_0 : (⟨S1700000, .i32⟩ : BufTy).Contents (Elt F) → (⟨S1700000x1, .i32⟩ : BufTy).Contents (Elt F)),
    binary main_v47 main_v75 main_v76 ((fun x i => Host.gather gather_S100000x40_S1700000x1_S1700000x40_1_0_n_n_0_1_140 x i) : (⟨S100000x40, .f32⟩ : BufTy).Contents (Elt F) → (⟨S1700000x1, .i32⟩ : BufTy).Contents (Elt F) → (⟨S1700000x40, .f32⟩ : BufTy).Contents (Elt F)),
    unary main_v69 main_v77 (broadcastInDim S1700000x1 ![0] bcast_S1700000_S1700000x1_0 : (⟨S1700000, .f32⟩ : BufTy).Contents (Elt F) → (⟨S1700000x1, .f32⟩ : BufTy).Contents (Elt F)),
    unary main_v77 main_v78 (broadcastInDim S1700000x40 ![0, 1] bcast_S1700000x1_S1700000x40_0_1 : (⟨S1700000x1, .f32⟩ : BufTy).Contents (Elt F) → (⟨S1700000x40, .f32⟩ : BufTy).Contents (Elt F)),
    binary main_v76 main_v78 main_v79 (mulf : (⟨S1700000x40, .f32⟩ : BufTy).Contents (Elt F) → (⟨S1700000x40, .f32⟩ : BufTy).Contents (Elt F) → (⟨S1700000x40, .f32⟩ : BufTy).Contents (Elt F)),
    nullary main_cst_17 (constant S_ .f32 0x00000000#32),
    unary main_cst_17 main_v80 (broadcastInDim S100000x40 ![] bcast_S_S100000x40 : (⟨S_, .f32⟩ : BufTy).Contents (Elt F) → (⟨S100000x40, .f32⟩ : BufTy).Contents (Elt F)),
    unary main_v6 main_v81 (broadcastInDim S1700000x1 ![0] bcast_S1700000_S1700000x1_0 : (⟨S1700000, .i32⟩ : BufTy).Contents (Elt F) → (⟨S1700000x1, .i32⟩ : BufTy).Contents (Elt F)),
    ternary main_v80 main_v81 main_v79 main_v82 ((fun x i u => Host.scatterAdd scatter_S100000x40_S1700000x1_S1700000x40_1_0_0_1 x i u) : (⟨S100000x40, .f32⟩ : BufTy).Contents (Elt F) → (⟨S1700000x1, .i32⟩ : BufTy).Contents (Elt F) → (⟨S1700000x40, .f32⟩ : BufTy).Contents (Elt F) → (⟨S100000x40, .f32⟩ : BufTy).Contents (Elt F)),
    unary main_arg5 main_v83 (broadcastInDim S1x40 ![1] bcast_S40_S1x40_1 : (⟨S40, .f32⟩ : BufTy).Contents (Elt F) → (⟨S1x40, .f32⟩ : BufTy).Contents (Elt F)),
    unary main_v83 main_v84 (broadcastInDim S100000x40 ![0, 1] bcast_S1x40_S100000x40_0_1 : (⟨S1x40, .f32⟩ : BufTy).Contents (Elt F) → (⟨S100000x40, .f32⟩ : BufTy).Contents (Elt F)),
    binary main_v82 main_v84 main_v85 (addf : (⟨S100000x40, .f32⟩ : BufTy).Contents (Elt F) → (⟨S100000x40, .f32⟩ : BufTy).Contents (Elt F) → (⟨S100000x40, .f32⟩ : BufTy).Contents (Elt F)),
    TRef.nullary (TRef.of (T := ⟨S_, .f32⟩) main_call1_cst) (constant S_ .f32 0xFF800000#32),
    TRef.binary (TRef.of (T := ⟨S100000x40, .f32⟩) main_v85) (TRef.of (T := ⟨S_, .f32⟩) main_call1_cst) (TRef.of (T := ⟨S100000, .f32⟩) main_call1_v0) (fun x v => Host.reduce FloatOps.maximumf x v reducesTo_S100000x40_S100000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf,
    TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x40, .f32⟩) main_call1_v4) (broadcastInDim S100000x40 ![0, 1] bcast_S100000x1_S100000x40_0_1),
    TRef.binary (TRef.of (T := ⟨S100000x40, .f32⟩) main_v85) (TRef.of (T := ⟨S100000x40, .f32⟩) main_call1_v4) (TRef.of (T := ⟨S100000x40, .f32⟩) main_call1_v5) subf,
    TRef.unary (TRef.of (T := ⟨S100000x40, .f32⟩) main_call1_v5) (TRef.of (T := ⟨S100000x40, .f32⟩) main_call1_v6) Host.exp,
    TRef.nullary (TRef.of (T := ⟨S_, .f32⟩) main_call1_cst_1) (constant S_ .f32 0x00000000#32),
    TRef.binary (TRef.of (T := ⟨S100000x40, .f32⟩) main_call1_v6) (TRef.of (T := ⟨S_, .f32⟩) main_call1_cst_1) (TRef.of (T := ⟨S100000, .f32⟩) main_call1_v7) (fun x v => Host.reduceAdd x v reducesTo_S100000x40_S100000_d1 h_S_),
    TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x40, .f32⟩) main_call1_v10) (broadcastInDim S100000x40 ![0, 1] bcast_S100000x1_S100000x40_0_1),
    TRef.binary (TRef.of (T := ⟨S100000x40, .f32⟩) main_call1_v5) (TRef.of (T := ⟨S100000x40, .f32⟩) main_call1_v10) (TRef.of (T := ⟨S100000x40, .f32⟩) main_v86) subf ]

/-- @main is the four stretches run in order. -/
def ops : List (HloOp τ sig (Elt F)) := ops1 ++ (ops2 ++ (ops3 ++ ops4))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops1_sub : (ops1 : List (HloOp τ sig (Elt F))).Forall fun op => op.bufs ⊆ tcRefs τ sig := by
  unfold ops1
  exact ⟨nullary_bufs_sub .., unary_bufs_sub .., reshape_bufs_sub .., binary_bufs_sub .., unary_bufs_sub .., reshape_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
set_option maxRecDepth 8192 in
theorem ops2_sub : (ops2 : List (HloOp τ sig (Elt F))).Forall fun op => op.bufs ⊆ tcRefs τ sig := by
  unfold ops2
  exact ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub ..⟩
set_option maxRecDepth 8192 in
theorem ops3_sub : (ops3 : List (HloOp τ sig (Elt F))).Forall fun op => op.bufs ⊆ tcRefs τ sig := by
  unfold ops3
  exact ⟨nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
set_option maxRecDepth 8192 in
theorem ops4_sub : (ops4 : List (HloOp τ sig (Elt F))).Forall fun op => op.bufs ⊆ tcRefs τ sig := by
  unfold ops4
  exact ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

theorem ops_sub : (ops : List (HloOp τ sig (Elt F))).Forall fun op => op.bufs ⊆ tcRefs τ sig := by
  unfold ops
  exact List.forall_append.mpr ⟨ops1_sub, List.forall_append.mpr ⟨ops2_sub, List.forall_append.mpr ⟨ops3_sub, ops4_sub⟩⟩⟩

theorem ops1_fresh : (ops1 : List (HloOp τ sig (Elt F))).Forall fun op => op.fresh = ∅ := by
  unfold ops1; simp only [List.Forall]; repeat' constructor
theorem ops2_fresh : (ops2 : List (HloOp τ sig (Elt F))).Forall fun op => op.fresh = ∅ := by
  unfold ops2; simp only [List.Forall]; repeat' constructor
theorem ops3_fresh : (ops3 : List (HloOp τ sig (Elt F))).Forall fun op => op.fresh = ∅ := by
  unfold ops3; simp only [List.Forall]; repeat' constructor
theorem ops4_fresh : (ops4 : List (HloOp τ sig (Elt F))).Forall fun op => op.fresh = ∅ := by
  unfold ops4; simp only [List.Forall]; repeat' constructor
theorem ops_fresh : ∀ op ∈ (ops : List (HloOp τ sig (Elt F))), op.fresh = ∅ := by
  unfold ops
  exact List.forall_iff_forall_mem.mp (List.forall_append.mpr ⟨ops1_fresh, List.forall_append.mpr ⟨ops2_fresh, List.forall_append.mpr ⟨ops3_fresh, ops4_fresh⟩⟩⟩)

/-- Every weakly fair execution of the reference terminates, each buffer ending at the four stretches' fold over the
    launch contents. -/
theorem run_after (m : (ℓ : Loc nD τ sig) → Buf (Elt F) ℓ) (ρ : Dev nD → PrngReg) :
    θ_run defs (onTc (τ := τ) (main (F := F))) ⟨m, fun _ => 0, ρ⟩ fun r => ∀ (d : Dev nD) (b : Ref sig .tc),
      r.2.mem ((d.tc : Thread nD τ).loc b)
        = after ops4 (after ops3 (after ops2 (after ops1 (launchContents m d)))) (Proc.devRef .tc b) :=
  (θ_run defs _ _).mono (fun _ h d b => (h d b).trans (by
      unfold ops
      rw [StableHlo.after_append, StableHlo.after_append, StableHlo.after_append]))
    (run_seq scopedRefs_eq scopedSems_eq defs main (fun _ => ops) main_eq (fun _ => ops_sub) m ρ (fun _ => ops_fresh))

/-! ## The outlined functions' typed buffers

The rectifier and the logarithm of the softmax are outlined functions; their operations name each buffer together
with its type, and move contents in and out of it through a transport along "this buffer's type is that type". At
each of these literal buffers the two types are the same, so every transport is the identity. -/

section Casts
theorem toBuf_call0_cst (x : (⟨S_, .f32⟩ : BufTy).Contents (Elt Ideal)) :
    (TRef.of (sig := sig) (T := ⟨S_, .f32⟩) main_call0_cst).toBuf (Val := Elt Ideal) x = x := rfl
theorem ofBuf_call0_cst (x : main_call0_cst.ty.Contents (Elt Ideal)) :
    (TRef.of (sig := sig) (T := ⟨S_, .f32⟩) main_call0_cst).ofBuf (Val := Elt Ideal) x = x := rfl
theorem toBuf_call0_v0 (x : (⟨S100000x64, .f32⟩ : BufTy).Contents (Elt Ideal)) :
    (TRef.of (sig := sig) (T := ⟨S100000x64, .f32⟩) main_call0_v0).toBuf (Val := Elt Ideal) x = x := rfl
theorem ofBuf_call0_v0 (x : main_call0_v0.ty.Contents (Elt Ideal)) :
    (TRef.of (sig := sig) (T := ⟨S100000x64, .f32⟩) main_call0_v0).ofBuf (Val := Elt Ideal) x = x := rfl
theorem ofBuf_v45 (x : main_v45.ty.Contents (Elt Ideal)) :
    (TRef.of (sig := sig) (T := ⟨S100000x64, .f32⟩) main_v45).ofBuf (Val := Elt Ideal) x = x := rfl
theorem toBuf_v46 (x : (⟨S100000x64, .f32⟩ : BufTy).Contents (Elt Ideal)) :
    (TRef.of (sig := sig) (T := ⟨S100000x64, .f32⟩) main_v46).toBuf (Val := Elt Ideal) x = x := rfl
theorem ofBuf_v85 (x : main_v85.ty.Contents (Elt Ideal)) :
    (TRef.of (sig := sig) (T := ⟨S100000x40, .f32⟩) main_v85).ofBuf (Val := Elt Ideal) x = x := rfl
theorem toBuf_call1_cst (x : (⟨S_, .f32⟩ : BufTy).Contents (Elt Ideal)) :
    (TRef.of (sig := sig) (T := ⟨S_, .f32⟩) main_call1_cst).toBuf (Val := Elt Ideal) x = x := rfl
theorem ofBuf_call1_cst (x : main_call1_cst.ty.Contents (Elt Ideal)) :
    (TRef.of (sig := sig) (T := ⟨S_, .f32⟩) main_call1_cst).ofBuf (Val := Elt Ideal) x = x := rfl
theorem toBuf_call1_v0 (x : (⟨S100000, .f32⟩ : BufTy).Contents (Elt Ideal)) :
    (TRef.of (sig := sig) (T := ⟨S100000, .f32⟩) main_call1_v0).toBuf (Val := Elt Ideal) x = x := rfl
theorem ofBuf_call1_v0 (x : main_call1_v0.ty.Contents (Elt Ideal)) :
    (TRef.of (sig := sig) (T := ⟨S100000, .f32⟩) main_call1_v0).ofBuf (Val := Elt Ideal) x = x := rfl
theorem toBuf_call1_cst_0 (x : (⟨S_, .f32⟩ : BufTy).Contents (Elt Ideal)) :
    (TRef.of (sig := sig) (T := ⟨S_, .f32⟩) main_call1_cst_0).toBuf (Val := Elt Ideal) x = x := rfl
theorem ofBuf_call1_cst_0 (x : main_call1_cst_0.ty.Contents (Elt Ideal)) :
    (TRef.of (sig := sig) (T := ⟨S_, .f32⟩) main_call1_cst_0).ofBuf (Val := Elt Ideal) x = x := rfl
theorem toBuf_call1_v1 (x : (⟨S100000, .f32⟩ : BufTy).Contents (Elt Ideal)) :
    (TRef.of (sig := sig) (T := ⟨S100000, .f32⟩) main_call1_v1).toBuf (Val := Elt Ideal) x = x := rfl
theorem ofBuf_call1_v1 (x : main_call1_v1.ty.Contents (Elt Ideal)) :
    (TRef.of (sig := sig) (T := ⟨S100000, .f32⟩) main_call1_v1).ofBuf (Val := Elt Ideal) x = x := rfl
theorem toBuf_call1_v2 (x : (⟨S100000, .f32⟩ : BufTy).Contents (Elt Ideal)) :
    (TRef.of (sig := sig) (T := ⟨S100000, .f32⟩) main_call1_v2).toBuf (Val := Elt Ideal) x = x := rfl
theorem ofBuf_call1_v2 (x : main_call1_v2.ty.Contents (Elt Ideal)) :
    (TRef.of (sig := sig) (T := ⟨S100000, .f32⟩) main_call1_v2).ofBuf (Val := Elt Ideal) x = x := rfl
theorem toBuf_call1_v3 (x : (⟨S100000x1, .f32⟩ : BufTy).Contents (Elt Ideal)) :
    (TRef.of (sig := sig) (T := ⟨S100000x1, .f32⟩) main_call1_v3).toBuf (Val := Elt Ideal) x = x := rfl
theorem ofBuf_call1_v3 (x : main_call1_v3.ty.Contents (Elt Ideal)) :
    (TRef.of (sig := sig) (T := ⟨S100000x1, .f32⟩) main_call1_v3).ofBuf (Val := Elt Ideal) x = x := rfl
theorem toBuf_call1_v4 (x : (⟨S100000x40, .f32⟩ : BufTy).Contents (Elt Ideal)) :
    (TRef.of (sig := sig) (T := ⟨S100000x40, .f32⟩) main_call1_v4).toBuf (Val := Elt Ideal) x = x := rfl
theorem ofBuf_call1_v4 (x : main_call1_v4.ty.Contents (Elt Ideal)) :
    (TRef.of (sig := sig) (T := ⟨S100000x40, .f32⟩) main_call1_v4).ofBuf (Val := Elt Ideal) x = x := rfl
theorem toBuf_call1_v5 (x : (⟨S100000x40, .f32⟩ : BufTy).Contents (Elt Ideal)) :
    (TRef.of (sig := sig) (T := ⟨S100000x40, .f32⟩) main_call1_v5).toBuf (Val := Elt Ideal) x = x := rfl
theorem ofBuf_call1_v5 (x : main_call1_v5.ty.Contents (Elt Ideal)) :
    (TRef.of (sig := sig) (T := ⟨S100000x40, .f32⟩) main_call1_v5).ofBuf (Val := Elt Ideal) x = x := rfl
theorem toBuf_call1_v6 (x : (⟨S100000x40, .f32⟩ : BufTy).Contents (Elt Ideal)) :
    (TRef.of (sig := sig) (T := ⟨S100000x40, .f32⟩) main_call1_v6).toBuf (Val := Elt Ideal) x = x := rfl
theorem ofBuf_call1_v6 (x : main_call1_v6.ty.Contents (Elt Ideal)) :
    (TRef.of (sig := sig) (T := ⟨S100000x40, .f32⟩) main_call1_v6).ofBuf (Val := Elt Ideal) x = x := rfl
theorem toBuf_call1_cst_1 (x : (⟨S_, .f32⟩ : BufTy).Contents (Elt Ideal)) :
    (TRef.of (sig := sig) (T := ⟨S_, .f32⟩) main_call1_cst_1).toBuf (Val := Elt Ideal) x = x := rfl
theorem ofBuf_call1_cst_1 (x : main_call1_cst_1.ty.Contents (Elt Ideal)) :
    (TRef.of (sig := sig) (T := ⟨S_, .f32⟩) main_call1_cst_1).ofBuf (Val := Elt Ideal) x = x := rfl
theorem toBuf_call1_v7 (x : (⟨S100000, .f32⟩ : BufTy).Contents (Elt Ideal)) :
    (TRef.of (sig := sig) (T := ⟨S100000, .f32⟩) main_call1_v7).toBuf (Val := Elt Ideal) x = x := rfl
theorem ofBuf_call1_v7 (x : main_call1_v7.ty.Contents (Elt Ideal)) :
    (TRef.of (sig := sig) (T := ⟨S100000, .f32⟩) main_call1_v7).ofBuf (Val := Elt Ideal) x = x := rfl
theorem toBuf_call1_v8 (x : (⟨S100000x1, .f32⟩ : BufTy).Contents (Elt Ideal)) :
    (TRef.of (sig := sig) (T := ⟨S100000x1, .f32⟩) main_call1_v8).toBuf (Val := Elt Ideal) x = x := rfl
theorem ofBuf_call1_v8 (x : main_call1_v8.ty.Contents (Elt Ideal)) :
    (TRef.of (sig := sig) (T := ⟨S100000x1, .f32⟩) main_call1_v8).ofBuf (Val := Elt Ideal) x = x := rfl
theorem toBuf_call1_v9 (x : (⟨S100000x1, .f32⟩ : BufTy).Contents (Elt Ideal)) :
    (TRef.of (sig := sig) (T := ⟨S100000x1, .f32⟩) main_call1_v9).toBuf (Val := Elt Ideal) x = x := rfl
theorem ofBuf_call1_v9 (x : main_call1_v9.ty.Contents (Elt Ideal)) :
    (TRef.of (sig := sig) (T := ⟨S100000x1, .f32⟩) main_call1_v9).ofBuf (Val := Elt Ideal) x = x := rfl
theorem toBuf_call1_v10 (x : (⟨S100000x40, .f32⟩ : BufTy).Contents (Elt Ideal)) :
    (TRef.of (sig := sig) (T := ⟨S100000x40, .f32⟩) main_call1_v10).toBuf (Val := Elt Ideal) x = x := rfl
theorem ofBuf_call1_v10 (x : main_call1_v10.ty.Contents (Elt Ideal)) :
    (TRef.of (sig := sig) (T := ⟨S100000x40, .f32⟩) main_call1_v10).ofBuf (Val := Elt Ideal) x = x := rfl
theorem toBuf_v86 (x : (⟨S100000x40, .f32⟩ : BufTy).Contents (Elt Ideal)) :
    (TRef.of (sig := sig) (T := ⟨S100000x40, .f32⟩) main_v86).toBuf (Val := Elt Ideal) x = x := rfl
end Casts

/-! ## The four stretches, each from any contents

Each is read by unrolling the fold over its operations; what is left is the functions of `Cert.Gcn` spelt out, up to
the identity transports above. -/

section Stretches

variable (W : Valuation τ sig (Elt Ideal))

/-- The first stretch leaves the two index vectors, the projection of the features and the edge weights. -/
theorem stretch1 :
    after (ops1 (F := Ideal)) W (Proc.devRef .tc main_v3) = Cert.Gcn.src (W (Proc.devRef .tc main_arg1))
    ∧ after (ops1 (F := Ideal)) W (Proc.devRef .tc main_v6) = Cert.Gcn.dst (W (Proc.devRef .tc main_arg1))
    ∧ after (ops1 (F := Ideal)) W (Proc.devRef .tc main_v7) = Cert.Gcn.dense1 (W (Proc.devRef .tc main_arg0)) (W (Proc.devRef .tc main_arg2))
    ∧ after (ops1 (F := Ideal)) W (Proc.devRef .tc main_v29)
        = Cert.Gcn.normOf (Cert.Gcn.src (W (Proc.devRef .tc main_arg1))) (Cert.Gcn.dst (W (Proc.devRef .tc main_arg1))) := by
  refine ⟨?_, ?_, ?_, ?_⟩ <;> unfold ops1 <;> after_results_simp <;> rfl

/-- The second stretch aggregates the projected rows and applies the second dense stage. -/
theorem stretch2 :
    after (ops2 (F := Ideal)) W (Proc.devRef .tc main_v47)
      = Cert.Gcn.dense2 (Cert.Gcn.aggregate64 (W (Proc.devRef .tc main_v7)) (W (Proc.devRef .tc main_v3)) (W (Proc.devRef .tc main_v6)) (W (Proc.devRef .tc main_v29)))
          (Cert.Gcn.row64 (W (Proc.devRef .tc main_arg3))) (W (Proc.devRef .tc main_arg4)) := by
  unfold ops2; after_results_simp
  simp only [Cert.Gcn.dense2, Cert.Gcn.biasRelu, Cert.Gcn.aggregate64, Cert.Gcn.row64, Cert.Gcn.col, Cert.Gcn.wrap]
  simp only [toBuf_v46]
  simp only [ofBuf_v45]
  simp only [toBuf_call0_v0]
  simp only [ofBuf_call0_v0]
  simp only [toBuf_call0_cst]
  simp only [ofBuf_call0_cst]

/-- The third stretch computes the edge weights again, from the same two index vectors. -/
theorem stretch3 :
    after (ops3 (F := Ideal)) W (Proc.devRef .tc main_v69) = Cert.Gcn.normOf (W (Proc.devRef .tc main_v3)) (W (Proc.devRef .tc main_v6)) := by
  unfold ops3; after_results_simp <;> rfl

/-- The fourth stretch aggregates once more and applies the final stage. -/
theorem stretch4 :
    after (ops4 (F := Ideal)) W (Proc.devRef .tc main_v86)
      = Cert.Gcn.biasLogSoftmax (Cert.Gcn.aggregate40 (W (Proc.devRef .tc main_v47)) (W (Proc.devRef .tc main_v3)) (W (Proc.devRef .tc main_v6)) (W (Proc.devRef .tc main_v69)))
          (Cert.Gcn.row40 (W (Proc.devRef .tc main_arg5))) := by
  unfold ops4; after_results_simp
  simp only [Cert.Gcn.biasLogSoftmax, Cert.Gcn.logSoftmax, Cert.Gcn.logSumExp, Cert.Gcn.shifted, Cert.Gcn.rowMax, Cert.Gcn.aggregate40, Cert.Gcn.row40, Cert.Gcn.col, Cert.Gcn.wrap]
  simp only [ofBuf_v85]
  simp only [toBuf_call1_cst]
  simp only [ofBuf_call1_cst]
  simp only [toBuf_call1_v0]
  simp only [ofBuf_call1_v0]
  simp only [toBuf_call1_cst_0]
  simp only [ofBuf_call1_cst_0]
  simp only [toBuf_call1_v1]
  simp only [ofBuf_call1_v1]
  simp only [toBuf_call1_v2]
  simp only [ofBuf_call1_v2]
  simp only [toBuf_call1_v3]
  simp only [ofBuf_call1_v3]
  simp only [toBuf_call1_v4]
  simp only [ofBuf_call1_v4]
  simp only [toBuf_call1_v5]
  simp only [ofBuf_call1_v5]
  simp only [toBuf_call1_v6]
  simp only [ofBuf_call1_v6]
  simp only [toBuf_call1_cst_1]
  simp only [ofBuf_call1_cst_1]
  simp only [toBuf_call1_v7]
  simp only [ofBuf_call1_v7]
  simp only [toBuf_call1_v8]
  simp only [ofBuf_call1_v8]
  simp only [toBuf_call1_v9]
  simp only [ofBuf_call1_v9]
  simp only [toBuf_call1_v10]
  simp only [ofBuf_call1_v10]
  refine (toBuf_v86 _).trans ?_
  congr 4

/-! What each stretch leaves alone, of the buffers a later stretch (or the claim) reads. -/

theorem keep1_arg0 : after (ops1 (F := Ideal)) W (Proc.devRef .tc main_arg0) = W (Proc.devRef .tc main_arg0) := by unfold ops1; after_results_simp
theorem keep1_arg1 : after (ops1 (F := Ideal)) W (Proc.devRef .tc main_arg1) = W (Proc.devRef .tc main_arg1) := by unfold ops1; after_results_simp
theorem keep1_arg2 : after (ops1 (F := Ideal)) W (Proc.devRef .tc main_arg2) = W (Proc.devRef .tc main_arg2) := by unfold ops1; after_results_simp
theorem keep1_arg3 : after (ops1 (F := Ideal)) W (Proc.devRef .tc main_arg3) = W (Proc.devRef .tc main_arg3) := by unfold ops1; after_results_simp
theorem keep1_arg4 : after (ops1 (F := Ideal)) W (Proc.devRef .tc main_arg4) = W (Proc.devRef .tc main_arg4) := by unfold ops1; after_results_simp
theorem keep1_arg5 : after (ops1 (F := Ideal)) W (Proc.devRef .tc main_arg5) = W (Proc.devRef .tc main_arg5) := by unfold ops1; after_results_simp
theorem keep2_arg0 : after (ops2 (F := Ideal)) W (Proc.devRef .tc main_arg0) = W (Proc.devRef .tc main_arg0) := by unfold ops2; after_results_simp
theorem keep2_arg1 : after (ops2 (F := Ideal)) W (Proc.devRef .tc main_arg1) = W (Proc.devRef .tc main_arg1) := by unfold ops2; after_results_simp
theorem keep2_arg2 : after (ops2 (F := Ideal)) W (Proc.devRef .tc main_arg2) = W (Proc.devRef .tc main_arg2) := by unfold ops2; after_results_simp
theorem keep2_arg3 : after (ops2 (F := Ideal)) W (Proc.devRef .tc main_arg3) = W (Proc.devRef .tc main_arg3) := by unfold ops2; after_results_simp
theorem keep2_arg4 : after (ops2 (F := Ideal)) W (Proc.devRef .tc main_arg4) = W (Proc.devRef .tc main_arg4) := by unfold ops2; after_results_simp
theorem keep2_arg5 : after (ops2 (F := Ideal)) W (Proc.devRef .tc main_arg5) = W (Proc.devRef .tc main_arg5) := by unfold ops2; after_results_simp
theorem keep2_v3 : after (ops2 (F := Ideal)) W (Proc.devRef .tc main_v3) = W (Proc.devRef .tc main_v3) := by unfold ops2; after_results_simp
theorem keep2_v6 : after (ops2 (F := Ideal)) W (Proc.devRef .tc main_v6) = W (Proc.devRef .tc main_v6) := by unfold ops2; after_results_simp
theorem keep3_arg0 : after (ops3 (F := Ideal)) W (Proc.devRef .tc main_arg0) = W (Proc.devRef .tc main_arg0) := by unfold ops3; after_results_simp
theorem keep3_arg1 : after (ops3 (F := Ideal)) W (Proc.devRef .tc main_arg1) = W (Proc.devRef .tc main_arg1) := by unfold ops3; after_results_simp
theorem keep3_arg2 : after (ops3 (F := Ideal)) W (Proc.devRef .tc main_arg2) = W (Proc.devRef .tc main_arg2) := by unfold ops3; after_results_simp
theorem keep3_arg3 : after (ops3 (F := Ideal)) W (Proc.devRef .tc main_arg3) = W (Proc.devRef .tc main_arg3) := by unfold ops3; after_results_simp
theorem keep3_arg4 : after (ops3 (F := Ideal)) W (Proc.devRef .tc main_arg4) = W (Proc.devRef .tc main_arg4) := by unfold ops3; after_results_simp
theorem keep3_arg5 : after (ops3 (F := Ideal)) W (Proc.devRef .tc main_arg5) = W (Proc.devRef .tc main_arg5) := by unfold ops3; after_results_simp
theorem keep3_v3 : after (ops3 (F := Ideal)) W (Proc.devRef .tc main_v3) = W (Proc.devRef .tc main_v3) := by unfold ops3; after_results_simp
theorem keep3_v6 : after (ops3 (F := Ideal)) W (Proc.devRef .tc main_v6) = W (Proc.devRef .tc main_v6) := by unfold ops3; after_results_simp
theorem keep3_v47 : after (ops3 (F := Ideal)) W (Proc.devRef .tc main_v47) = W (Proc.devRef .tc main_v47) := by unfold ops3; after_results_simp
theorem keep4_arg0 : after (ops4 (F := Ideal)) W (Proc.devRef .tc main_arg0) = W (Proc.devRef .tc main_arg0) := by unfold ops4; after_results_simp
theorem keep4_arg1 : after (ops4 (F := Ideal)) W (Proc.devRef .tc main_arg1) = W (Proc.devRef .tc main_arg1) := by unfold ops4; after_results_simp
theorem keep4_arg2 : after (ops4 (F := Ideal)) W (Proc.devRef .tc main_arg2) = W (Proc.devRef .tc main_arg2) := by unfold ops4; after_results_simp
theorem keep4_arg3 : after (ops4 (F := Ideal)) W (Proc.devRef .tc main_arg3) = W (Proc.devRef .tc main_arg3) := by unfold ops4; after_results_simp
theorem keep4_arg4 : after (ops4 (F := Ideal)) W (Proc.devRef .tc main_arg4) = W (Proc.devRef .tc main_arg4) := by unfold ops4; after_results_simp
theorem keep4_arg5 : after (ops4 (F := Ideal)) W (Proc.devRef .tc main_arg5) = W (Proc.devRef .tc main_arg5) := by unfold ops4; after_results_simp

end Stretches

/-! ## The result and the arguments after the whole run -/

section Whole

variable (m : (ℓ : Loc nD τ sig) → Buf (Elt Ideal) ℓ) (d : Dev nD)

/-- The result buffer ends at the network of the six arguments. -/
theorem result :
    after (ops4 (F := Ideal)) (after ops3 (after ops2 (after ops1 (launchContents m d)))) (Proc.devRef .tc main_v86)
      = Cert.Gcn.forward (m ((d.tc : Thread nD τ).loc main_arg0)) (m ((d.tc : Thread nD τ).loc main_arg1)) (m ((d.tc : Thread nD τ).loc main_arg2))
          (m ((d.tc : Thread nD τ).loc main_arg3)) (m ((d.tc : Thread nD τ).loc main_arg4)) (m ((d.tc : Thread nD τ).loc main_arg5)) := by
  obtain ⟨e3, e6, e7, e29⟩ := stretch1 (launchContents m d)
  rw [stretch4, keep3_v47, stretch2, stretch3, keep3_v3, keep3_v6, keep2_v3, keep2_v6, e3, e6, e7, e29,
    keep3_arg5, keep2_arg5, keep1_arg5, keep1_arg3, keep1_arg4]
  rfl

/-- No stretch writes an argument. -/
theorem kept (b : Ref sig .tc) (hb : b = main_arg0 ∨ b = main_arg1 ∨ b = main_arg2 ∨ b = main_arg3 ∨ b = main_arg4 ∨ b = main_arg5) :
    after (ops4 (F := Ideal)) (after ops3 (after ops2 (after ops1 (launchContents m d)))) (Proc.devRef .tc b)
      = m ((d.tc : Thread nD τ).loc b) := by
  rcases hb with rfl | rfl | rfl | rfl | rfl | rfl
  · rw [keep4_arg0, keep3_arg0, keep2_arg0, keep1_arg0]
  · rw [keep4_arg1, keep3_arg1, keep2_arg1, keep1_arg1]
  · rw [keep4_arg2, keep3_arg2, keep2_arg2, keep1_arg2]
  · rw [keep4_arg3, keep3_arg3, keep2_arg3, keep1_arg3]
  · rw [keep4_arg4, keep3_arg4, keep2_arg4, keep1_arg4]
  · rw [keep4_arg5, keep3_arg5, keep2_arg5, keep1_arg5]

/-- The reference's run: the result at the network of the arguments, the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v86)
        = Cert.Gcn.forward (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨(h c main_v86).trans (result m c),
       (h c main_arg0).trans (kept m c _ (.inl rfl)),
       (h c main_arg1).trans (kept m c _ (.inr (.inl rfl))),
       (h c main_arg2).trans (kept m c _ (.inr (.inr (.inl rfl)))),
       (h c main_arg3).trans (kept m c _ (.inr (.inr (.inr (.inl rfl))))),
       (h c main_arg4).trans (kept m c _ (.inr (.inr (.inr (.inr (.inl rfl)))))),
       (h c main_arg5).trans (kept m c _ (.inr (.inr (.inr (.inr (.inr rfl))))))⟩)
    (run_after (F := Ideal) m ρ)

end Whole

end Cert.ReferenceIdeal.Hand

end
-- ==== Proof.lean ====
/-
  The two-layer graph convolution network (projection, weighted neighbourhood aggregation, bias and rectifier,
  projection, aggregation, bias and the logarithm of the softmax) computed by three grid kernels among host gathers
  and scatters, against the same network written with host operations only.

  On extended reals both programs compute `Cert.Gcn.forward` of the six arguments (Proof/GcnStages.lean,
  Proof/GcnGraph.lean): the kernel's three grid computations produce, block of 5000 rows by block, the arrays
  `dense1`, `dense2` and `biasLogSoftmax` of what they are given (Proof/Region0.lean, Region1.lean, Region2.lean — a
  matrix product into a zero accumulator is the plain sum of products, narrowing to a shorter float format is the
  identity, and each row of the last stage depends on that row only); the host operations between them are the
  reference's own gathers and scatters on the same index vectors (Proof/KernelHost.lean); the run of the three regions
  and three host stretches names every buffer at the end (Proof/KernelRun.lean, Proof/KernelValue.lean). The reference's
  straight line of host operations is read in four stretches (Proof/RefRun.lean); it computes the edge weights twice,
  from the same index vectors, which changes nothing. No algebraic law is needed beyond reading the operations, so the
  finiteness precondition is never opened.

  The idealization rewrote no operation of the kernel, so there is nothing to preserve.
-/
import proofs.«172768_j27908697489840_1_alg».proof.Defs
import proofs.«172768_j27908697489840_1_alg».proof.Proof.Gen.Kernel
import proofs.«172768_j27908697489840_1_alg».proof.Proof.Gen.Kernel.Skeleton
import proofs.«172768_j27908697489840_1_alg».proof.Proof.Gen.Kernel.Launch
import proofs.«172768_j27908697489840_1_alg».proof.Proof.Gen.Kernel.Points
import proofs.«172768_j27908697489840_1_alg».proof.Proof.Gen.Kernel.Frame
import proofs.«172768_j27908697489840_1_alg».proof.Proof.Gen.KernelIdeal
import proofs.«172768_j27908697489840_1_alg».proof.Proof.Gen.KernelIdeal.Skeleton
import proofs.«172768_j27908697489840_1_alg».proof.Proof.Gen.KernelIdeal.Launch
import proofs.«172768_j27908697489840_1_alg».proof.Proof.Gen.KernelIdeal.Points
import proofs.«172768_j27908697489840_1_alg».proof.Proof.Gen.KernelIdeal.Frame
import proofs.«172768_j27908697489840_1_alg».proof.Proof.Gen.ReferenceIdeal
import proofs.«172768_j27908697489840_1_alg».proof.Proof.Gen.Pre_finite_inputs
import proofs.«172768_j27908697489840_1_alg».proof.Proof.KernelValue
import proofs.«172768_j27908697489840_1_alg».proof.Proof.RefRun
import Idealize.ShloMosaic.Adequacy
import Idealize.ShloMosaic.Init

noncomputable section

namespace Cert.Proof

open Idealize.ShloMosaic Idealize.SL.Sem

/-- The word-level kernel program runs and leaves its arguments alone. -/
theorem frame_kernel : Cert.frame_Kernel := fun m ρ _ => Cert.Kernel.Gen.frame m ρ

/-- So does the kernel program read on extended reals. -/
theorem frame_kernelIdeal : Cert.frame_KernelIdeal := fun m ρ _ => Cert.KernelIdeal.Gen.frame m ρ

/-- The reference runs and leaves its arguments alone: its run, the result forgotten. -/
theorem frame_referenceIdeal : Cert.frame_ReferenceIdeal := fun m ρ _ =>
  (θ_run Cert.ReferenceIdeal.defs _ _).mono (fun _ h c => (h c).2) (Cert.ReferenceIdeal.Hand.run m ρ)

/-- The idealization rewrote nothing. -/
theorem preserves : Cert.preserves_Kernel_KernelIdeal := trivial

/-- From memories agreeing on the arguments both programs end with the network of those arguments. -/
theorem algebraic : Cert.algebraic_KernelIdeal_ReferenceIdeal := by
  intro m ρ m' ρ' _ hagree
  refine ⟨fun c => Cert.Gcn.forward (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    Cert.KernelIdeal.Value.run m ρ, ?_⟩
  refine (θ_run Cert.ReferenceIdeal.defs _ _).mono (fun _ h c => ⟨(h c).1.trans ?_, (h c).2⟩)
    (Cert.ReferenceIdeal.Hand.run m' ρ')
  obtain ⟨e0, e1, e2, e3, e4, e5⟩ := hagree c
  rw [e0, e1, e2, e3, e4, e5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
